-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S128x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 112
  | .vmem => 30
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x512, .bf16⟩
  | .hbm, ⟨49, _⟩ => ⟨S512x256, .bf16⟩
  | .hbm, ⟨50, _⟩ => ⟨S50000x256, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .bf16⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .bf16⟩
  | .hbm, ⟨70, _⟩ => ⟨S256x128, .bf16⟩
  | .hbm, ⟨71, _⟩ => ⟨S50000x128, .bf16⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .bf16⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .bf16⟩
  | .hbm, ⟨91, _⟩ => ⟨S128x64, .bf16⟩
  | .hbm, ⟨92, _⟩ => ⟨S50000x64, .bf16⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x64, .bf16⟩
  | .hbm, ⟨102, _⟩ => ⟨S850000x64, .f32⟩
  | .hbm, ⟨103, _⟩ => ⟨S850000x1, .f32⟩
  | .hbm, ⟨104, _⟩ => ⟨S850000x64, .f32⟩
  | .hbm, ⟨105, _⟩ => ⟨S850000x64, .f32⟩
  | .hbm, ⟨106, _⟩ => ⟨S_, .f32⟩
  | .hbm, ⟨107, _⟩ => ⟨S50000x64, .f32⟩
  | .hbm, ⟨108, _⟩ => ⟨S850000x1, .i32⟩
  | .hbm, ⟨109, _⟩ => ⟨S50000x64, .f32⟩
  | .hbm, ⟨110, _⟩ => ⟨S1x64, .f32⟩
  | .hbm, ⟨111, _⟩ => ⟨S50000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S256x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x64, .bf16⟩
  | .local _ .vmem, ⟨23, _⟩ => ⟨S2000x64, .bf16⟩
  | .local _ .vmem, ⟨24, _⟩ => ⟨S2000x64, .bf16⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .bf16 = 32 ∨ (Rect.block (s := S50000x128) S2000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .bf16 = 32 ∨ (Rect.block (s := S50000x64) S2000x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v30) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 132
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x256, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S_, .f32⟩
  | 127 => ⟨S50000, .f32⟩
  | _ => ⟨S50000x512, .f32⟩

abbrev hbmTy0_1 (i : Nat) : BufTy := match i % 128 with
  | 0 => ⟨S50000x1, .f32⟩
  | 1 => ⟨S50000x1, .f32⟩
  | 2 => ⟨S50000x64, .f32⟩
  | 3 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩
abbrev main_call4_cst : Ref sig .tc := ⟨.hbm, 117, rfl⟩
abbrev main_call4_v0 : Ref sig .tc := ⟨.hbm, 118, rfl⟩
abbrev main_call4_cst_0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_cst_1 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_v84 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The kernel's run with its result kept.

  The program is six pipelined regions among stretches of host operations. Its run from the launch memory ends with
  every unscoped buffer at the contents of the last boundary of the fold through the program (each host stretch
  applies its operations; each region replaces its arrays by what its write-backs leave). Here that final state is
  read at the result buffer as well as at the eight arguments: the result ends at the last boundary's contents, the
  arguments end as launched.
-/
import proofs.«170503_j72395968741626_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault; the result buffer ends at the
    last boundary's contents and each argument array ends as launched. -/
theorem run_result : θ_run defs (onTc (τ := τ) (main (F := F))) ⟨m, fun _ => 0, ρ⟩ (fun r => ∀ c : Dev nD,
      r.2.mem ((c.tc : Thread nD τ).loc main_v84) = W14 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v84 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.KValue

end
-- ==== Proof.KHost.lean ====
/-
  The host side of the kernel program: what the stretches of host operations between the regions compute.

  From the edge array the program builds, once, the source and destination index vectors (the edges followed by one
  self loop per node), the node degrees (how many edges arrive), their inverse square roots where positive, and each
  edge's normalisation (the product of the two at its ends). Before each bias kernel it gathers each edge's source
  row of the projected features, scales it by the normalisation and sums it into the destination row; before each
  later projection it only changes a weight array's format. The index vectors and the normalisation are written once
  and read again three stretches later, and the arguments are read where they are first needed: nothing in between
  writes them, so each is read back at the boundary where it was written.
-/
import proofs.«170503_j72395968741626_1_alg».proof.Proof.Gen.KernelIdeal.Frame
import Idealize.ShloMosaic.Lib.StableHlo.Run
import Idealize.ShloMosaic.PureOps.Ideal

set_option maxRecDepth 65536

noncomputable section

namespace Cert.KernelIdeal.HostSide

open Idealize.ShloMosaic Idealize.ShloMosaic.TcCoe Idealize.SL.Sem Idealize.ShloMosaic.StableHlo
open Cert.KernelIdeal Cert.KernelIdeal.Gen

/-! ## The host functions, named -/

/-- The source indices: row 0 of the edge array, then the nodes themselves (the self loops). -/
def src (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The destination indices: row 1 of the edge array, then the nodes themselves. -/
def dst (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A negative index counted from the end: 50000 added where the index is below zero. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The node degrees: a one summed into each edge's destination. -/
def deg (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- Each edge's normalisation: the inverse square roots of the degrees (zero where the degree is not positive) at its
    two ends, multiplied. -/
def norm (s d : IVec S850000 32) (dis : FVec Ideal S50000 .f32) :
    FVec Ideal S850000 .f32 :=
  mulf
    (Host.gather gather_S50000_S850000x1_S850000_n_0_n_n_0_1_1 dis (broadcastInDim S850000x1 ![0] bcast_S850000_S850000x1_0 (wrap s)))
    (Host.gather gather_S50000_S850000x1_S850000_n_0_n_n_0_1_1 dis (broadcastInDim S850000x1 ![0] bcast_S850000_S850000x1_0 (wrap d)))

/-- One aggregation at width 256: each edge's source row of `H` (the source index wrapped into range), scaled by the
    edge's normalisation, summed into the edge's destination row. -/
def agg256 (s d : IVec S850000 32) (n : FVec Ideal S850000 .f32)
    (H : FVec Ideal S50000x256 .bf16) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf
      (extf .f32 (Host.gather gather_S50000x256_S850000x1_S850000x256_1_0_n_n_0_1_1256 H
        (broadcastInDim S850000x1 ![0] bcast_S850000_S850000x1_0 (wrap s))) bitsLt_bf16_f32)
      (broadcastInDim S850000x256 ![0, 1] bcast_S850000x1_S850000x256_0_1
        (broadcastInDim S850000x1 ![0] bcast_S850000_S850000x1_0 n)))

/-- One aggregation at width 128: each edge's source row of `H` (the source index wrapped into range), scaled by the
    edge's normalisation, summed into the edge's destination row. -/
def agg128 (s d : IVec S850000 32) (n : FVec Ideal S850000 .f32)
    (H : FVec Ideal S50000x128 .bf16) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf
      (extf .f32 (Host.gather gather_S50000x128_S850000x1_S850000x128_1_0_n_n_0_1_1128 H
        (broadcastInDim S850000x1 ![0] bcast_S850000_S850000x1_0 (wrap s))) bitsLt_bf16_f32)
      (broadcastInDim S850000x128 ![0, 1] bcast_S850000x1_S850000x128_0_1
        (broadcastInDim S850000x1 ![0] bcast_S850000_S850000x1_0 n)))

/-- One aggregation at width 64: each edge's source row of `H` (the source index wrapped into range), scaled by the
    edge's normalisation, summed into the edge's destination row. -/
def agg64 (s d : IVec S850000 32) (n : FVec Ideal S850000 .f32)
    (H : FVec Ideal S50000x64 .bf16) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf
      (extf .f32 (Host.gather gather_S50000x64_S850000x1_S850000x64_1_0_n_n_0_1_164 H
        (broadcastInDim S850000x1 ![0] bcast_S850000_S850000x1_0 (wrap s))) bitsLt_bf16_f32)
      (broadcastInDim S850000x64 ![0, 1] bcast_S850000x1_S850000x64_0_1
        (broadcastInDim S850000x1 ![0] bcast_S850000_S850000x1_0 n)))

/-! ## One stretch from any contents -/

/-- The stretch before the width-256 bias kernel, from any contents `W`: the aggregated array, and the bias as one row. -/
theorem stretch_main_v46 (W : Valuation τ sig (Elt Ideal)) :
    StableHlo.after (hostOps1 (F := Ideal)) W (Proc.devRef .tc main_v46)
      = agg256 (W (Proc.devRef .tc main_v3)) (W (Proc.devRef .tc main_v6)) (W (Proc.devRef .tc main_v29)) (W (Proc.devRef .tc main_v32)) := by
  after_results_simp <;> rfl
theorem stretch_main_v47 (W : Valuation τ sig (Elt Ideal)) :
    StableHlo.after (hostOps1 (F := Ideal)) W (Proc.devRef .tc main_v47)
      = (shapeCast S1x256 (W (Proc.devRef .tc main_arg3) : FVec Ideal S256 .f32) shapeCasts_S256_S1x256 : FVec Ideal S1x256 .f32) := by
  after_results_simp <;> rfl

/-- The stretch before the width-128 bias kernel, from any contents `W`: the aggregated array, and the bias as one row. -/
theorem stretch_main_v64 (W : Valuation τ sig (Elt Ideal)) :
    StableHlo.after (hostOps3 (F := Ideal)) W (Proc.devRef .tc main_v64)
      = agg128 (W (Proc.devRef .tc main_v3)) (W (Proc.devRef .tc main_v6)) (W (Proc.devRef .tc main_v29)) (W (Proc.devRef .tc main_v50)) := by
  after_results_simp <;> rfl
theorem stretch_main_v65 (W : Valuation τ sig (Elt Ideal)) :
    StableHlo.after (hostOps3 (F := Ideal)) W (Proc.devRef .tc main_v65)
      = (shapeCast S1x128 (W (Proc.devRef .tc main_arg5) : FVec Ideal S128 .f32) shapeCasts_S128_S1x128 : FVec Ideal S1x128 .f32) := by
  after_results_simp <;> rfl

/-- The stretch before the width-64 bias kernel, from any contents `W`: the aggregated array, and the bias as one row. -/
theorem stretch_main_v82 (W : Valuation τ sig (Elt Ideal)) :
    StableHlo.after (hostOps5 (F := Ideal)) W (Proc.devRef .tc main_v82)
      = agg64 (W (Proc.devRef .tc main_v3)) (W (Proc.devRef .tc main_v6)) (W (Proc.devRef .tc main_v29)) (W (Proc.devRef .tc main_v68)) := by
  after_results_simp <;> rfl
theorem stretch_main_v83 (W : Valuation τ sig (Elt Ideal)) :
    StableHlo.after (hostOps5 (F := Ideal)) W (Proc.devRef .tc main_v83)
      = (shapeCast S1x64 (W (Proc.devRef .tc main_arg7) : FVec Ideal S64 .f32) shapeCasts_S64_S1x64 : FVec Ideal S1x64 .f32) := by
  after_results_simp <;> rfl

/-- The stretch before the second and the third projection: the weight array in the kernel's input format. -/
theorem stretch_main_v49 (W : Valuation τ sig (Elt Ideal)) :
    StableHlo.after (hostOps2 (F := Ideal)) W (Proc.devRef .tc main_v49)
      = (truncf .bf16 (W (Proc.devRef .tc main_arg4) : FVec Ideal S256x128 .f32) bitsLt_bf16_f32 : FVec Ideal S256x128 .bf16) := by
  after_results_simp <;> rfl
theorem stretch_main_v67 (W : Valuation τ sig (Elt Ideal)) :
    StableHlo.after (hostOps4 (F := Ideal)) W (Proc.devRef .tc main_v67)
      = (truncf .bf16 (W (Proc.devRef .tc main_arg6) : FVec Ideal S128x64 .f32) bitsLt_bf16_f32 : FVec Ideal S128x64 .bf16) := by
  after_results_simp <;> rfl

/-! ## Buffers no segment in between writes -/

/-- No operation of the stretch writes the buffer: each operation's one result is another reference. -/
macro "keep_host" : tactic =>
  `(tactic| exact StableHlo.after_of_forall_not_mem _ _ (List.forall_iff_forall_mem.mp (by
      simp only [hostOps0, hostOps0_1, hostOps0_2, hostOps1, hostOps2, hostOps3, hostOps4, hostOps5,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

/-- Region 0 does not touch `main_v3`. -/
theorem keep4_main_v3 (c : Dev nD) : W4 m ρ c (Proc.devRef .tc main_v3) = W3 m ρ c (Proc.devRef .tc main_v3) :=
  (W4_of_ne m ρ c main_v3 (by decide))
/-- Nothing between region 0's exit and region 2's exit writes `main_v3`. -/
theorem keep8_main_v3 (c : Dev nD) : W8 m ρ c (Proc.devRef .tc main_v3) = W4 m ρ c (Proc.devRef .tc main_v3) :=
  ((W8_of_ne m ρ c main_v3 (by decide)).trans ((by keep_host : W7 m ρ c (Proc.devRef .tc main_v3) = W6 m ρ c (Proc.devRef .tc main_v3)).trans ((W6_of_ne m ρ c main_v3 (by decide)).trans (by keep_host : W5 m ρ c (Proc.devRef .tc main_v3) = W4 m ρ c (Proc.devRef .tc main_v3)))))
/-- Nothing between region 2's exit and region 4's exit writes `main_v3`. -/
theorem keep12_main_v3 (c : Dev nD) : W12 m ρ c (Proc.devRef .tc main_v3) = W8 m ρ c (Proc.devRef .tc main_v3) :=
  ((W12_of_ne m ρ c main_v3 (by decide)).trans ((by keep_host : W11 m ρ c (Proc.devRef .tc main_v3) = W10 m ρ c (Proc.devRef .tc main_v3)).trans ((W10_of_ne m ρ c main_v3 (by decide)).trans (by keep_host : W9 m ρ c (Proc.devRef .tc main_v3) = W8 m ρ c (Proc.devRef .tc main_v3)))))
/-- Region 0 does not touch `main_v6`. -/
theorem keep4_main_v6 (c : Dev nD) : W4 m ρ c (Proc.devRef .tc main_v6) = W3 m ρ c (Proc.devRef .tc main_v6) :=
  (W4_of_ne m ρ c main_v6 (by decide))
/-- Nothing between region 0's exit and region 2's exit writes `main_v6`. -/
theorem keep8_main_v6 (c : Dev nD) : W8 m ρ c (Proc.devRef .tc main_v6) = W4 m ρ c (Proc.devRef .tc main_v6) :=
  ((W8_of_ne m ρ c main_v6 (by decide)).trans ((by keep_host : W7 m ρ c (Proc.devRef .tc main_v6) = W6 m ρ c (Proc.devRef .tc main_v6)).trans ((W6_of_ne m ρ c main_v6 (by decide)).trans (by keep_host : W5 m ρ c (Proc.devRef .tc main_v6) = W4 m ρ c (Proc.devRef .tc main_v6)))))
/-- Nothing between region 2's exit and region 4's exit writes `main_v6`. -/
theorem keep12_main_v6 (c : Dev nD) : W12 m ρ c (Proc.devRef .tc main_v6) = W8 m ρ c (Proc.devRef .tc main_v6) :=
  ((W12_of_ne m ρ c main_v6 (by decide)).trans ((by keep_host : W11 m ρ c (Proc.devRef .tc main_v6) = W10 m ρ c (Proc.devRef .tc main_v6)).trans ((W10_of_ne m ρ c main_v6 (by decide)).trans (by keep_host : W9 m ρ c (Proc.devRef .tc main_v6) = W8 m ρ c (Proc.devRef .tc main_v6)))))
/-- Region 0 does not touch `main_v29`. -/
theorem keep4_main_v29 (c : Dev nD) : W4 m ρ c (Proc.devRef .tc main_v29) = W3 m ρ c (Proc.devRef .tc main_v29) :=
  (W4_of_ne m ρ c main_v29 (by decide))
/-- Nothing between region 0's exit and region 2's exit writes `main_v29`. -/
theorem keep8_main_v29 (c : Dev nD) : W8 m ρ c (Proc.devRef .tc main_v29) = W4 m ρ c (Proc.devRef .tc main_v29) :=
  ((W8_of_ne m ρ c main_v29 (by decide)).trans ((by keep_host : W7 m ρ c (Proc.devRef .tc main_v29) = W6 m ρ c (Proc.devRef .tc main_v29)).trans ((W6_of_ne m ρ c main_v29 (by decide)).trans (by keep_host : W5 m ρ c (Proc.devRef .tc main_v29) = W4 m ρ c (Proc.devRef .tc main_v29)))))
/-- Nothing between region 2's exit and region 4's exit writes `main_v29`. -/
theorem keep12_main_v29 (c : Dev nD) : W12 m ρ c (Proc.devRef .tc main_v29) = W8 m ρ c (Proc.devRef .tc main_v29) :=
  ((W12_of_ne m ρ c main_v29 (by decide)).trans ((by keep_host : W11 m ρ c (Proc.devRef .tc main_v29) = W10 m ρ c (Proc.devRef .tc main_v29)).trans ((W10_of_ne m ρ c main_v29 (by decide)).trans (by keep_host : W9 m ρ c (Proc.devRef .tc main_v29) = W8 m ρ c (Proc.devRef .tc main_v29)))))
/-- The first two host stretches leave the feature argument alone. -/
theorem keep_arg0 (c : Dev nD) : W2 m ρ c (Proc.devRef .tc main_arg0) = W0 m ρ c (Proc.devRef .tc main_arg0) :=
  ((by keep_host : W2 m ρ c (Proc.devRef .tc main_arg0) = W1 m ρ c (Proc.devRef .tc main_arg0)).trans (by keep_host : W1 m ρ c (Proc.devRef .tc main_arg0) = W0 m ρ c (Proc.devRef .tc main_arg0)))
/-- The first two host stretches leave the first weight argument alone. -/
theorem keep_arg2 (c : Dev nD) : W2 m ρ c (Proc.devRef .tc main_arg2) = W0 m ρ c (Proc.devRef .tc main_arg2) :=
  ((by keep_host : W2 m ρ c (Proc.devRef .tc main_arg2) = W1 m ρ c (Proc.devRef .tc main_arg2)).trans (by keep_host : W1 m ρ c (Proc.devRef .tc main_arg2) = W0 m ρ c (Proc.devRef .tc main_arg2)))
/-- Nothing up to region 0's exit writes the first bias argument. -/
theorem keep_arg3 (c : Dev nD) : W4 m ρ c (Proc.devRef .tc main_arg3) = W0 m ρ c (Proc.devRef .tc main_arg3) :=
  ((W4_of_ne m ρ c main_arg3 (by decide)).trans ((by keep_host : W3 m ρ c (Proc.devRef .tc main_arg3) = W2 m ρ c (Proc.devRef .tc main_arg3)).trans ((by keep_host : W2 m ρ c (Proc.devRef .tc main_arg3) = W1 m ρ c (Proc.devRef .tc main_arg3)).trans (by keep_host : W1 m ρ c (Proc.devRef .tc main_arg3) = W0 m ρ c (Proc.devRef .tc main_arg3)))))
/-- Nothing up to region 1's exit writes the second weight argument. -/
theorem keep_arg4 (c : Dev nD) : W6 m ρ c (Proc.devRef .tc main_arg4) = W0 m ρ c (Proc.devRef .tc main_arg4) :=
  ((W6_of_ne m ρ c main_arg4 (by decide)).trans ((by keep_host : W5 m ρ c (Proc.devRef .tc main_arg4) = W4 m ρ c (Proc.devRef .tc main_arg4)).trans ((W4_of_ne m ρ c main_arg4 (by decide)).trans ((by keep_host : W3 m ρ c (Proc.devRef .tc main_arg4) = W2 m ρ c (Proc.devRef .tc main_arg4)).trans ((by keep_host : W2 m ρ c (Proc.devRef .tc main_arg4) = W1 m ρ c (Proc.devRef .tc main_arg4)).trans (by keep_host : W1 m ρ c (Proc.devRef .tc main_arg4) = W0 m ρ c (Proc.devRef .tc main_arg4)))))))
/-- Nothing up to region 2's exit writes the second bias argument. -/
theorem keep_arg5 (c : Dev nD) : W8 m ρ c (Proc.devRef .tc main_arg5) = W0 m ρ c (Proc.devRef .tc main_arg5) :=
  ((W8_of_ne m ρ c main_arg5 (by decide)).trans ((by keep_host : W7 m ρ c (Proc.devRef .tc main_arg5) = W6 m ρ c (Proc.devRef .tc main_arg5)).trans ((W6_of_ne m ρ c main_arg5 (by decide)).trans ((by keep_host : W5 m ρ c (Proc.devRef .tc main_arg5) = W4 m ρ c (Proc.devRef .tc main_arg5)).trans ((W4_of_ne m ρ c main_arg5 (by decide)).trans ((by keep_host : W3 m ρ c (Proc.devRef .tc main_arg5) = W2 m ρ c (Proc.devRef .tc main_arg5)).trans ((by keep_host : W2 m ρ c (Proc.devRef .tc main_arg5) = W1 m ρ c (Proc.devRef .tc main_arg5)).trans (by keep_host : W1 m ρ c (Proc.devRef .tc main_arg5) = W0 m ρ c (Proc.devRef .tc main_arg5)))))))))
/-- Nothing up to region 3's exit writes the third weight argument. -/
theorem keep_arg6 (c : Dev nD) : W10 m ρ c (Proc.devRef .tc main_arg6) = W0 m ρ c (Proc.devRef .tc main_arg6) :=
  ((W10_of_ne m ρ c main_arg6 (by decide)).trans ((by keep_host : W9 m ρ c (Proc.devRef .tc main_arg6) = W8 m ρ c (Proc.devRef .tc main_arg6)).trans ((W8_of_ne m ρ c main_arg6 (by decide)).trans ((by keep_host : W7 m ρ c (Proc.devRef .tc main_arg6) = W6 m ρ c (Proc.devRef .tc main_arg6)).trans ((W6_of_ne m ρ c main_arg6 (by decide)).trans ((by keep_host : W5 m ρ c (Proc.devRef .tc main_arg6) = W4 m ρ c (Proc.devRef .tc main_arg6)).trans ((W4_of_ne m ρ c main_arg6 (by decide)).trans ((by keep_host : W3 m ρ c (Proc.devRef .tc main_arg6) = W2 m ρ c (Proc.devRef .tc main_arg6)).trans ((by keep_host : W2 m ρ c (Proc.devRef .tc main_arg6) = W1 m ρ c (Proc.devRef .tc main_arg6)).trans (by keep_host : W1 m ρ c (Proc.devRef .tc main_arg6) = W0 m ρ c (Proc.devRef .tc main_arg6)))))))))))
/-- Nothing up to region 4's exit writes the third bias argument. -/
theorem keep_arg7 (c : Dev nD) : W12 m ρ c (Proc.devRef .tc main_arg7) = W0 m ρ c (Proc.devRef .tc main_arg7) :=
  ((W12_of_ne m ρ c main_arg7 (by decide)).trans ((by keep_host : W11 m ρ c (Proc.devRef .tc main_arg7) = W10 m ρ c (Proc.devRef .tc main_arg7)).trans ((W10_of_ne m ρ c main_arg7 (by decide)).trans ((by keep_host : W9 m ρ c (Proc.devRef .tc main_arg7) = W8 m ρ c (Proc.devRef .tc main_arg7)).trans ((W8_of_ne m ρ c main_arg7 (by decide)).trans ((by keep_host : W7 m ρ c (Proc.devRef .tc main_arg7) = W6 m ρ c (Proc.devRef .tc main_arg7)).trans ((W6_of_ne m ρ c main_arg7 (by decide)).trans ((by keep_host : W5 m ρ c (Proc.devRef .tc main_arg7) = W4 m ρ c (Proc.devRef .tc main_arg7)).trans ((W4_of_ne m ρ c main_arg7 (by decide)).trans ((by keep_host : W3 m ρ c (Proc.devRef .tc main_arg7) = W2 m ρ c (Proc.devRef .tc main_arg7)).trans ((by keep_host : W2 m ρ c (Proc.devRef .tc main_arg7) = W1 m ρ c (Proc.devRef .tc main_arg7)).trans (by keep_host : W1 m ρ c (Proc.devRef .tc main_arg7) = W0 m ρ c (Proc.devRef .tc main_arg7)))))))))))))
/-- The weight cast before region 2 leaves region 1's output alone. -/
theorem keep7_main_v48 (c : Dev nD) : W7 m ρ c (Proc.devRef .tc main_v48) = W6 m ρ c (Proc.devRef .tc main_v48) :=
  (by keep_host : W7 m ρ c (Proc.devRef .tc main_v48) = W6 m ρ c (Proc.devRef .tc main_v48))
/-- The weight cast before region 4 leaves region 3's output alone. -/
theorem keep11_main_v66 (c : Dev nD) : W11 m ρ c (Proc.devRef .tc main_v66) = W10 m ρ c (Proc.devRef .tc main_v66) :=
  (by keep_host : W11 m ρ c (Proc.devRef .tc main_v66) = W10 m ρ c (Proc.devRef .tc main_v66))

end Cert.KernelIdeal.HostSide

end
-- ==== Proof.KEntry.lean ====
/-
  What the kernel program's first region finds: the index vectors, the edge normalisation and the projection's inputs.

  Three stretches of host operations run before the first region. From the edge argument they leave the source and
  destination index vectors and the edge normalisation (the inverse square roots of the degrees at an edge's two
  ends, multiplied; zero where a degree is not positive); from the feature and first weight arguments they leave the
  same arrays in the kernel's input format.
-/
import proofs.«170503_j72395968741626_1_alg».proof.Proof.KHost

set_option maxRecDepth 65536

noncomputable section

namespace Cert.KernelIdeal.HostSide

open Idealize.ShloMosaic Idealize.ShloMosaic.TcCoe Idealize.SL.Sem Idealize.ShloMosaic.StableHlo
open Cert.KernelIdeal Cert.KernelIdeal.Gen

/-- The inverse square root of each degree, zero where the degree is not positive. -/
def dis (d : IVec S850000 32) : FVec Ideal S50000 .f32 :=
  select (cmpf .ogt (deg d) (broadcastInDim S50000 ![] bcast_S_S50000 (constant (F := Ideal) S_ .f32 0x00000000#32)))
    (Host.rsqrt (deg d))
    (broadcastInDim S50000 ![] bcast_S_S50000 (id (constant (F := Ideal) S_ .f32 0x00000000#32)))

/-! ## The three opening stretches from any contents -/

theorem entry_main_v3 (W : Valuation τ sig (Elt Ideal)) :
    StableHlo.after (hostOps0_2 (F := Ideal)) (StableHlo.after hostOps0_1 (StableHlo.after hostOps0 W)) (Proc.devRef .tc main_v3)
      = src (W (Proc.devRef .tc main_arg1)) := by
  after_results_simp <;> rfl
theorem entry_main_v6 (W : Valuation τ sig (Elt Ideal)) :
    StableHlo.after (hostOps0_2 (F := Ideal)) (StableHlo.after hostOps0_1 (StableHlo.after hostOps0 W)) (Proc.devRef .tc main_v6)
      = dst (W (Proc.devRef .tc main_arg1)) := by
  after_results_simp <;> rfl
/-! The normalisation, stretch by stretch -/

theorem s0_main_v3 (W : Valuation τ sig (Elt Ideal)) :
    StableHlo.after (hostOps0 (F := Ideal)) W (Proc.devRef .tc main_v3) = src (W (Proc.devRef .tc main_arg1)) := by
  after_results_simp <;> rfl
theorem s0_main_v6 (W : Valuation τ sig (Elt Ideal)) :
    StableHlo.after (hostOps0 (F := Ideal)) W (Proc.devRef .tc main_v6) = dst (W (Proc.devRef .tc main_arg1)) := by
  after_results_simp <;> rfl
theorem s0_main_v12 (W : Valuation τ sig (Elt Ideal)) :
    StableHlo.after (hostOps0 (F := Ideal)) W (Proc.devRef .tc main_v12)
      = cmpf .ogt (deg (dst (W (Proc.devRef .tc main_arg1)))) (broadcastInDim S50000 ![] bcast_S_S50000 (constant (F := Ideal) S_ .f32 0x00000000#32)) := by
  after_results_simp <;> rfl
theorem s0_main_v13 (W : Valuation τ sig (Elt Ideal)) :
    StableHlo.after (hostOps0 (F := Ideal)) W (Proc.devRef .tc main_v13) = Host.rsqrt (deg (dst (W (Proc.devRef .tc main_arg1)))) := by
  after_results_simp <;> rfl
theorem s0_main_cst_2 (W : Valuation τ sig (Elt Ideal)) :
    StableHlo.after (hostOps0 (F := Ideal)) W (Proc.devRef .tc main_cst_2) = constant (F := Ideal) S_ .f32 0x00000000#32 := by
  after_results_simp <;> rfl
theorem s1_main_v14 (W : Valuation τ sig (Elt Ideal)) :
    StableHlo.after (hostOps0_1 (F := Ideal)) W (Proc.devRef .tc main_v14)
      = select (W (Proc.devRef .tc main_v12)) (W (Proc.devRef .tc main_v13) : FVec Ideal S50000 .f32)
          (broadcastInDim S50000 ![] bcast_S_S50000 (id (W (Proc.devRef .tc main_cst_2) : FVec Ideal S_ .f32))) := by
  after_results_simp <;> rfl
theorem s2_main_v29 (W : Valuation τ sig (Elt Ideal)) :
    StableHlo.after (hostOps0_2 (F := Ideal)) W (Proc.devRef .tc main_v29)
      = norm (W (Proc.devRef .tc main_v3)) (W (Proc.devRef .tc main_v6)) (W (Proc.devRef .tc main_v14)) := by
  after_results_simp <;> rfl

theorem entry_main_v29 (W : Valuation τ sig (Elt Ideal)) :
    StableHlo.after (hostOps0_2 (F := Ideal)) (StableHlo.after hostOps0_1 (StableHlo.after hostOps0 W)) (Proc.devRef .tc main_v29)
      = norm (src (W (Proc.devRef .tc main_arg1))) (dst (W (Proc.devRef .tc main_arg1))) (dis (dst (W (Proc.devRef .tc main_arg1)))) := by
  have h3 : StableHlo.after (hostOps0_1 (F := Ideal)) (StableHlo.after hostOps0 W) (Proc.devRef .tc main_v3)
      = StableHlo.after hostOps0 W (Proc.devRef .tc main_v3) := by keep_host
  have h6 : StableHlo.after (hostOps0_1 (F := Ideal)) (StableHlo.after hostOps0 W) (Proc.devRef .tc main_v6)
      = StableHlo.after hostOps0 W (Proc.devRef .tc main_v6) := by keep_host
  rw [s2_main_v29, s1_main_v14, h3, h6, s0_main_v3, s0_main_v6, s0_main_v12, s0_main_v13, s0_main_cst_2]
  rfl
theorem entry_main_v30 (W : Valuation τ sig (Elt Ideal)) :
    StableHlo.after (hostOps0_2 (F := Ideal)) (StableHlo.after hostOps0_1 (StableHlo.after hostOps0 W)) (Proc.devRef .tc main_v30)
      = (truncf .bf16 (W (Proc.devRef .tc main_arg0) : FVec Ideal S50000x512 .f32) bitsLt_bf16_f32 : FVec Ideal S50000x512 .bf16) := by
  after_results_simp <;> rfl
theorem entry_main_v31 (W : Valuation τ sig (Elt Ideal)) :
    StableHlo.after (hostOps0_2 (F := Ideal)) (StableHlo.after hostOps0_1 (StableHlo.after hostOps0 W)) (Proc.devRef .tc main_v31)
      = (truncf .bf16 (W (Proc.devRef .tc main_arg2) : FVec Ideal S512x256 .f32) bitsLt_bf16_f32 : FVec Ideal S512x256 .bf16) := by
  after_results_simp <;> rfl

end Cert.KernelIdeal.HostSide

end
-- ==== Proof.Spec.lean ====
/-
  The layers of the network as whole-array functions on the extended reals.

  A graph-convolution layer projects every node's feature row through a weight matrix, sends each projected row
  along the edges scaled by the edge's normalisation, sums what arrives at each node, adds the bias and clips at
  zero. Only the three pieces computed tile by tile are named here, each as ONE function of whole arrays, index by
  index; the gathering and summing along edges is the same operation in both programs and is never opened.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- THE PROJECTION: entry (r, c) is the row r of `X` against the column c of `W`. -/
def proj {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem proj_apply {M K N : Nat} (X : (⟨2, ![M, K]⟩ : Shape).Idx → EReal) (W : (⟨2, ![K, N]⟩ : Shape).Idx → EReal)
    (r : Fin M) (c : Fin N) : proj X W (ix2 r c) = ∑ k : Fin K, X (ix2 r k) * W (ix2 k c) := rfl

/-- BIAS AND CLIP: entry (r, c) is the larger of `A (r, c) + b c` and the value `z` (zero in every use). The bias is a
    single row. -/
def biasClip {M N : Nat} (z : EReal) (A : (⟨2, ![M, N]⟩ : Shape).Idx → EReal) (b : (⟨2, ![1, N]⟩ : Shape).Idx → EReal) :
    (⟨2, ![M, N]⟩ : Shape).Idx → EReal :=
  fun i => max (A i + b (ix2 (0 : Fin 1) (i 1))) z

theorem biasClip_apply {M N : Nat} (z : EReal) (A : (⟨2, ![M, N]⟩ : Shape).Idx → EReal)
    (b : (⟨2, ![1, N]⟩ : Shape).Idx → EReal) (r : Fin M) (c : Fin N) :
    biasClip z A b (ix2 r c) = max (A (ix2 r c) + b (ix2 (0 : Fin 1) c)) z := rfl

/-- THE LOG-SOFTMAX OF A ROW, shifted by the row's maximum: with `μ r` the maximum of row r taken from the start value
    `lo` (minus infinity in every use) and once more against `lo`, entry (r, c) is
    `(H (r, c) - μ r) - log (s + ∑ l, exp (H (r, l) - μ r))`, the sum started from `s` (zero in every use). -/
def rowMax {M N : Nat} (lo : EReal) (H : (⟨2, ![M, N]⟩ : Shape).Idx → EReal) (r : Fin M) : EReal :=
  max lo ((Finset.univ : Finset (Fin N)).fold max lo fun l => H (ix2 r l))

def logSoftmax {M N : Nat} (lo : EReal) (H : (⟨2, ![M, N]⟩ : Shape).Idx → EReal) :
    (⟨2, ![M, N]⟩ : Shape).Idx → EReal :=
  fun i => (H i - rowMax lo H (i 0)) - Ideal.log (∑ l : Fin N, Ideal.exp (H (ix2 (i 0) l) - rowMax lo H (i 0)))

theorem logSoftmax_apply {M N : Nat} (lo : EReal) (H : (⟨2, ![M, N]⟩ : Shape).Idx → EReal) (r : Fin M) (c : Fin N) :
    logSoftmax lo H (ix2 r c)
      = (H (ix2 r c) - rowMax lo H r) - Ideal.log (∑ l : Fin N, Ideal.exp (H (ix2 r l) - rowMax lo H r)) := rfl

/-- The log-softmax at (r, c) depends only on row r: two arrays (of any row counts) whose rows r and r' agree give the
    same value there. -/
theorem logSoftmax_congr_row {M M' N : Nat} (lo : EReal) (H : (⟨2, ![M, N]⟩ : Shape).Idx → EReal)
    (H' : (⟨2, ![M', N]⟩ : Shape).Idx → EReal) (r : Fin M) (r' : Fin M')
    (hrow : ∀ l : Fin N, H (ix2 r l) = H' (ix2 r' l)) (c : Fin N) :
    logSoftmax lo H (ix2 r c) = logSoftmax lo H' (ix2 r' c) := by
  have hf : (fun l : Fin N => H (ix2 r l)) = fun l => H' (ix2 r' l) := funext hrow
  have hm : rowMax lo H r = rowMax lo H' r' := by unfold rowMax; rw [hf]
  have hs : (∑ l : Fin N, Ideal.exp (H (ix2 r l) - rowMax lo H r))
      = ∑ l : Fin N, Ideal.exp (H' (ix2 r' l) - rowMax lo H' r') :=
    Finset.sum_congr rfl fun l _ => by rw [hrow l, hm]
  rw [logSoftmax_apply, logSoftmax_apply, hs, hm, hrow c]

/-- The projection at (r, c) depends only on row r of the left array and column c of the right one. -/
theorem proj_congr {M M' K N N' : Nat} (X : (⟨2, ![M, K]⟩ : Shape).Idx → EReal) (X' : (⟨2, ![M', K]⟩ : Shape).Idx → EReal)
    (W : (⟨2, ![K, N]⟩ : Shape).Idx → EReal) (W' : (⟨2, ![K, N']⟩ : Shape).Idx → EReal)
    (r : Fin M) (r' : Fin M') (c : Fin N) (c' : Fin N')
    (hX : ∀ k : Fin K, X (ix2 r k) = X' (ix2 r' k)) (hW : ∀ k : Fin K, W (ix2 k c) = W' (ix2 k c')) :
    proj X W (ix2 r c) = proj X' W' (ix2 r' c') := by
  rw [proj_apply, proj_apply]
  exact Finset.sum_congr rfl fun k _ => by rw [hX k, hW k]

/-- The bias-and-clip at (r, c) depends only on that entry of the array and on the bias at column c. -/
theorem biasClip_congr {M M' N N' : Nat} (z : EReal) (A : (⟨2, ![M, N]⟩ : Shape).Idx → EReal)
    (A' : (⟨2, ![M', N']⟩ : Shape).Idx → EReal) (b : (⟨2, ![1, N]⟩ : Shape).Idx → EReal) (b' : (⟨2, ![1, N']⟩ : Shape).Idx → EReal)
    (r : Fin M) (r' : Fin M') (c : Fin N) (c' : Fin N')
    (hA : A (ix2 r c) = A' (ix2 r' c')) (hb : b (ix2 (0 : Fin 1) c) = b' (ix2 (0 : Fin 1) c')) :
    biasClip z A b (ix2 r c) = biasClip z A' b' (ix2 r' c') := by
  rw [biasClip_apply, biasClip_apply, hA, hb]

end Cert.Spec

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.Mat0.lean ====
/-
  REGION 0, the first projection: the array it leaves is the projection of the whole input arrays.

  The grid has 25 points; point t reads rows 2000 t … 2000 t + 1999 of the feature array (all 512 columns) and
  the whole 512 × 256 weight array, and writes rows 2000 t … 2000 t + 1999 of the output. Inside the block the
  body is one matrix product into a zero accumulator, so its entry (p, q) is row p of the block against column q of
  the weights: the same sum as entry (2000 t + p, q) of the whole projection. The 25 row blocks tile the 50000 rows,
  so the output array ends as the projection of the arrays the region found.
-/
import proofs.«170503_j72395968741626_1_alg».proof.Proof.Gen.KernelIdeal.Frame
import proofs.«170503_j72395968741626_1_alg».proof.Proof.Spec
import proofs.«170503_j72395968741626_1_alg».proof.Proof.LibPlainDot
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: row p of the feature block against column q of the weights. -/
theorem pay_apply (x0 : Vec Ideal S2000x512 .bf16) (x1 : Vec Ideal S512x256 .bf16) (p : Fin 2000) (q : Fin 256) :
    k0_pay1 x0 x1 (ix2 p q) = Spec.proj (M := 2000) (K := 512) (N := 256) x0 x1 (ix2 p q) := by
  rw [Spec.proj_apply]
  unfold k0_pay1
  rw [shapeCast_self, shapeCast_self]
  exact PlainDot.matmul_zero_apply (M := 2000) (K := 512) (N := 256) (φ₁ := .bf16) (φ₂ := .bf16)
    dot_S2000x512_S512x256_S2000x256_1_0_0_1_n_n.wf none x0 x1 p q

/-- The printed index maps over the grid: the feature and output windows move down the rows with the point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the projection of the arrays the region found. -/
theorem flushed_eq (c : Dev nD) (t : Fin cfg0.N) :
    (dat0 V c).flushed 2 t
      = ((cfg0.win 2).blk t).view.read (Elt Ideal) (Spec.proj (M := 50000) (K := 512) (N := 256) (V c main_v30) (V c main_v31)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  refine funext fun (j : S2000x256.Idx) => ?_
  obtain ⟨p, q, rfl⟩ : ∃ (p : Fin 2000) (q : Fin 256), j = ix2 p q := ⟨j 0, j 1, eq_ix2 j⟩
  refine (pay_apply _ _ p q).trans ?_
  have hp : p.val < 2000 := p.isLt
  have hq : q.val < 256 := q.isLt
  have hx : ∀ k : Fin 512, ((cfg0.win 0).blk t).view.emb (ix2 p k)
      = (ix2 ((((cfg0.win 2).blk t).view.emb (ix2 p q)) 0) k : S50000x512.Idx) := fun k => by
    have hk : k.val < 512 := k.isLt
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hw : ∀ k : Fin 512, ((cfg0.win 1).blk t).view.emb (ix2 k q)
      = (ix2 k ((((cfg0.win 2).blk t).view.emb (ix2 p q)) 1) : S512x256.Idx) := fun k => by
    have hk : k.val < 512 := k.isLt
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  refine (Spec.proj_congr (iblk0 V c 0 t) (V c main_v30) (iblk0 V c 1 t) (V c main_v31) p
    ((((cfg0.win 2).blk t).view.emb (ix2 p q)) 0) q ((((cfg0.win 2).blk t).view.emb (ix2 p q)) 1)
    (fun k => congrArg (V c main_v30) (hx k)) (fun k => congrArg (V c main_v31) (hw k))).trans ?_
  exact congrArg (Spec.proj (M := 50000) (K := 512) (N := 256) (V c main_v30) (V c main_v31))
    (eq_ix2 (((cfg0.win 2).blk t).view.emb (ix2 p q))).symm

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Every row of the output lies in the block of the point its row index divided by 2000 names. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE ARRAY after the region: the projection of the feature array by the weight array, as the region found them. -/
theorem final (c : Dev nD) :
    (dat0 V c).arrAt 2 cfg0.N = Spec.proj (M := 50000) (K := 512) (N := 256) (V c main_v30) (V c main_v31) :=
  (dat0 V c).arrAt_eq_of_cover 2 _ (fun t _ => flushed_eq V c t) cover

end Cert.KernelIdeal.Layer0

end
-- ==== Proof.Bias1.lean ====
/-
  REGION 1, bias and clip after the first aggregation: the array it leaves is the bias-and-clip of the whole arrays.

  Point t of the 25 reads rows 2000 t … 2000 t + 1999 of the aggregated array (all 256 columns) and the one-row bias,
  and writes the same rows of the output. The body is pointwise: entry (p, q) of the block is the larger of the
  aggregated entry plus the bias at column q and zero — entry (2000 t + p, q) of the whole-array function. The row
  blocks tile the 50000 rows.
-/
import proofs.«170503_j72395968741626_1_alg».proof.Proof.Gen.KernelIdeal.Frame
import proofs.«170503_j72395968741626_1_alg».proof.Proof.Spec
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The clip value: the float zero's pattern read as an extended real. -/
abbrev zero : EReal := Ideal.ofBits .f32 0x00000000#32

/-- The one-row bias broadcast down the rows, read at (p, q): the bias at column q. -/
theorem bias_apply (x1 : Vec Ideal S1x256 .f32) (p : Fin 2000) (q : Fin 256) :
    broadcastTo S2000x256 x1 broadcasts_S1x256_S2000x256 (ix2 p q) = x1 (ix2 (0 : Fin 1) q) :=
  broadcastTo_apply x1 broadcasts_S1x256_S2000x256 (ix2 p q) (ix2 (0 : Fin 1) q) (fun a => by
    match a with
    | ⟨0, _⟩ => rfl
    | ⟨1, _⟩ => rfl)

/-- The body's stored value at entry (p, q) of the block. -/
theorem pay_apply (x0 : Vec Ideal S2000x256 .f32) (x1 : Vec Ideal S1x256 .f32) (p : Fin 2000) (q : Fin 256) :
    k1_pay1 x0 x1 (ix2 p q) = Spec.biasClip (M := 2000) (N := 256) zero x0 x1 (ix2 p q) := by
  rw [Spec.biasClip_apply]
  unfold k1_pay1
  rw [shapeCast_self, shapeCast_self]
  show max (x0 (ix2 p q) + broadcastTo S2000x256 x1 broadcasts_S1x256_S2000x256 (ix2 p q)) _ = _
  rw [bias_apply]
  rfl

/-- The printed index maps over the grid: the aggregated and output windows move down the rows with the point, the
    bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the bias-and-clip of the arrays the region found. -/
theorem flushed_eq (c : Dev nD) (t : Fin cfg1.N) :
    (dat1 V c).flushed 2 t
      = ((cfg1.win 2).blk t).view.read (Elt Ideal) (Spec.biasClip (M := 50000) (N := 256) zero (V c main_v46) (V c main_v47)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨e0, e1, e2, e3, e4, e5⟩ := idx_facts t
  refine funext fun (j : S2000x256.Idx) => ?_
  obtain ⟨p, q, rfl⟩ : ∃ (p : Fin 2000) (q : Fin 256), j = ix2 p q := ⟨j 0, j 1, eq_ix2 j⟩
  refine (pay_apply _ _ p q).trans ?_
  have hp : p.val < 2000 := p.isLt
  have hq : q.val < 256 := q.isLt
  have hx : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = win1_2.index t (1 : Fin 2) * 256 + 1 * q.val; omega
  have hb : ((cfg1.win 1).blk t).view.emb (ix2 (0 : Fin 1) q)
      = (ix2 (0 : Fin 1) ((((cfg1.win 2).blk t).view.emb (ix2 p q)) 1) : S1x256.Idx) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  refine (Spec.biasClip_congr zero (iblk1 V c 0 t) (V c main_v46) (iblk1 V c 1 t) (V c main_v47) p
    ((((cfg1.win 2).blk t).view.emb (ix2 p q)) 0) q ((((cfg1.win 2).blk t).view.emb (ix2 p q)) 1)
    ((congrArg (V c main_v46) hx).trans (congrArg (V c main_v46) (eq_ix2 (((cfg1.win 2).blk t).view.emb (ix2 p q)))))
    (congrArg (V c main_v47) hb)).trans ?_
  exact congrArg (Spec.biasClip (M := 50000) (N := 256) zero (V c main_v46) (V c main_v47))
    (eq_ix2 (((cfg1.win 2).blk t).view.emb (ix2 p q))).symm

/-- An index of the output array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v48).slice (win1_2.rect t)).set ↔ _
  rw [View.set_slice_whole, Rect.mem_set_unit]
  exact Iff.rfl

/-- Every row of the output lies in the block of the point its row index divided by 2000 names. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE ARRAY after the region: the bias-and-clip of the aggregated array and the bias row, as the region found them. -/
theorem final (c : Dev nD) :
    (dat1 V c).arrAt 2 cfg1.N = Spec.biasClip (M := 50000) (N := 256) zero (V c main_v46) (V c main_v47) :=
  (dat1 V c).arrAt_eq_of_cover 2 _ (fun t _ => flushed_eq V c t) cover

end Cert.KernelIdeal.Layer1

end
-- ==== Proof.Mat2.lean ====
/-
  REGION 2, the second projection: the array it leaves is the projection of the whole input arrays.

  The grid has 25 points; point t reads rows 2000 t … 2000 t + 1999 of the feature array (all 256 columns) and
  the whole 256 × 128 weight array, and writes rows 2000 t … 2000 t + 1999 of the output. Inside the block the
  body is one matrix product into a zero accumulator, so its entry (p, q) is row p of the block against column q of
  the weights: the same sum as entry (2000 t + p, q) of the whole projection. The 25 row blocks tile the 50000 rows,
  so the output array ends as the projection of the arrays the region found.
-/
import proofs.«170503_j72395968741626_1_alg».proof.Proof.Gen.KernelIdeal.Frame
import proofs.«170503_j72395968741626_1_alg».proof.Proof.Spec
import proofs.«170503_j72395968741626_1_alg».proof.Proof.LibPlainDot
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: row p of the feature block against column q of the weights. -/
theorem pay_apply (x0 : Vec Ideal S2000x256 .bf16) (x1 : Vec Ideal S256x128 .bf16) (p : Fin 2000) (q : Fin 128) :
    k2_pay1 x0 x1 (ix2 p q) = Spec.proj (M := 2000) (K := 256) (N := 128) x0 x1 (ix2 p q) := by
  rw [Spec.proj_apply]
  unfold k2_pay1
  rw [shapeCast_self, shapeCast_self]
  exact PlainDot.matmul_zero_apply (M := 2000) (K := 256) (N := 128) (φ₁ := .bf16) (φ₂ := .bf16)
    dot_S2000x256_S256x128_S2000x128_1_0_0_1_n_n.wf none x0 x1 p q

/-- The printed index maps over the grid: the feature and output windows move down the rows with the point, the
    weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the projection of the arrays the region found. -/
theorem flushed_eq (c : Dev nD) (t : Fin cfg2.N) :
    (dat2 V c).flushed 2 t
      = ((cfg2.win 2).blk t).view.read (Elt Ideal) (Spec.proj (M := 50000) (K := 256) (N := 128) (V c main_v48) (V c main_v49)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  refine (pay_apply _ _ p q).trans ?_
  have hp : p.val < 2000 := p.isLt
  have hq : q.val < 128 := q.isLt
  have hx : ∀ k : Fin 256, ((cfg2.win 0).blk t).view.emb (ix2 p k)
      = (ix2 ((((cfg2.win 2).blk t).view.emb (ix2 p q)) 0) k : S50000x256.Idx) := fun k => by
    have hk : k.val < 256 := k.isLt
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 256 + 1 * k.val = k.val; omega
  have hw : ∀ k : Fin 256, ((cfg2.win 1).blk t).view.emb (ix2 k q)
      = (ix2 k ((((cfg2.win 2).blk t).view.emb (ix2 p q)) 1) : S256x128.Idx) := fun k => by
    have hk : k.val < 256 := k.isLt
    funext a; apply Fin.ext
    match a with
    | ⟨0, _⟩ => show win2_1.index t (0 : Fin 2) * 256 + 1 * k.val = k.val; omega
    | ⟨1, _⟩ => show win2_1.index t (1 : Fin 2) * 128 + 1 * q.val = win2_2.index t (1 : Fin 2) * 128 + 1 * q.val; omega
  refine (Spec.proj_congr (iblk2 V c 0 t) (V c main_v48) (iblk2 V c 1 t) (V c main_v49) p
    ((((cfg2.win 2).blk t).view.emb (ix2 p q)) 0) q ((((cfg2.win 2).blk t).view.emb (ix2 p q)) 1)
    (fun k => congrArg (V c main_v48) (hx k)) (fun k => congrArg (V c main_v49) (hw k))).trans ?_
  exact congrArg (Spec.proj (M := 50000) (K := 256) (N := 128) (V c main_v48) (V c main_v49))
    (eq_ix2 (((cfg2.win 2).blk t).view.emb (ix2 p q))).symm

/-- An index of the output array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- Every row of the output lies in the block of the point its row index divided by 2000 names. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- THE ARRAY after the region: the projection of the feature array by the weight array, as the region found them. -/
theorem final (c : Dev nD) :
    (dat2 V c).arrAt 2 cfg2.N = Spec.proj (M := 50000) (K := 256) (N := 128) (V c main_v48) (V c main_v49) :=
  (dat2 V c).arrAt_eq_of_cover 2 _ (fun t _ => flushed_eq V c t) cover

end Cert.KernelIdeal.Layer2

end
-- ==== Proof.Bias3.lean ====
/-
  REGION 3, bias and clip after the second aggregation: the array it leaves is the bias-and-clip of the whole arrays.

  Point t of the 25 reads rows 2000 t … 2000 t + 1999 of the aggregated array (all 128 columns) and the one-row bias,
  and writes the same rows of the output. The body is pointwise: entry (p, q) of the block is the larger of the
  aggregated entry plus the bias at column q and zero — entry (2000 t + p, q) of the whole-array function. The row
  blocks tile the 50000 rows.
-/
import proofs.«170503_j72395968741626_1_alg».proof.Proof.Gen.KernelIdeal.Frame
import proofs.«170503_j72395968741626_1_alg».proof.Proof.Spec
import Idealize.ShloMosaic.Lib.Pipeline.Value
import Idealize.ShloMosaic.Lib.ValueIdx

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The clip value: the float zero's pattern read as an extended real. -/
abbrev zero : EReal := Ideal.ofBits .f32 0x00000000#32

/-- The one-row bias broadcast down the rows, read at (p, q): the bias at column q. -/
theorem bias_apply (x1 : Vec Ideal S1x128 .f32) (p : Fin 2000) (q : Fin 128) :
    broadcastTo S2000x128 x1 broadcasts_S1x128_S2000x128 (ix2 p q) = x1 (ix2 (0 : Fin 1) q) :=
  broadcastTo_apply x1 broadcasts_S1x128_S2000x128 (ix2 p q) (ix2 (0 : Fin 1) q) (fun a => by
    match a with
    | ⟨0, _⟩ => rfl
    | ⟨1, _⟩ => rfl)

/-- The body's stored value at entry (p, q) of the block. -/
theorem pay_apply (x0 : Vec Ideal S2000x128 .f32) (x1 : Vec Ideal S1x128 .f32) (p : Fin 2000) (q : Fin 128) :
    k3_pay1 x0 x1 (ix2 p q) = Spec.biasClip (M := 2000) (N := 128) zero x0 x1 (ix2 p q) := by
  rw [Spec.biasClip_apply]
  unfold k3_pay1
  rw [shapeCast_self, shapeCast_self]
  show max (x0 (ix2 p q) + broadcastTo S2000x128 x1 broadcasts_S1x128_S2000x128 (ix2 p q)) _ = _
  rw [bias_apply]
  rfl

/-- The printed index maps over the grid: the aggregated and output windows move down the rows with the point, the
    bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of the bias-and-clip of the arrays the region found. -/
theorem flushed_eq (c : Dev nD) (t : Fin cfg3.N) :
    (dat3 V c).flushed 2 t
      = ((cfg3.win 2).blk t).view.read (Elt Ideal) (Spec.biasClip (M := 50000) (N := 128) zero (V c main_v64) (V c main_v65)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  refine (pay_apply _ _ p q).trans ?_
  have hp : p.val < 2000 := p.isLt
  have hq : q.val < 128 := q.isLt
  have hx : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have hb : ((cfg3.win 1).blk t).view.emb (ix2 (0 : Fin 1) q)
      = (ix2 (0 : Fin 1) ((((cfg3.win 2).blk t).view.emb (ix2 p q)) 1) : S1x128.Idx) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  refine (Spec.biasClip_congr zero (iblk3 V c 0 t) (V c main_v64) (iblk3 V c 1 t) (V c main_v65) p
    ((((cfg3.win 2).blk t).view.emb (ix2 p q)) 0) q ((((cfg3.win 2).blk t).view.emb (ix2 p q)) 1)
    ((congrArg (V c main_v64) hx).trans (congrArg (V c main_v64) (eq_ix2 (((cfg3.win 2).blk t).view.emb (ix2 p q)))))
    (congrArg (V c main_v65) hb)).trans ?_
  exact congrArg (Spec.biasClip (M := 50000) (N := 128) zero (V c main_v64) (V c main_v65))
    (eq_ix2 (((cfg3.win 2).blk t).view.emb (ix2 p q))).symm

/-- An index of the output array is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v66).slice (win3_2.rect t)).set ↔ _
  rw [View.set_slice_whole, Rect.mem_set_unit]
  exact Iff.rfl

/-- Every row of the output lies in the block of the point its row index divided by 2000 names. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1, e2, e3, e4, e5⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- THE ARRAY after the region: the bias-and-clip of the aggregated array and the bias row, as the region found them. -/
theorem final (c : Dev nD) :
    (dat3 V c).arrAt 2 cfg3.N = Spec.biasClip (M := 50000) (N := 128) zero (V c main_v64) (V c main_v65) :=
  (dat3 V c).arrAt_eq_of_cover 2 _ (fun t _ => flushed_eq V c t) cover

end Cert.KernelIdeal.Layer3

end
-- ==== Proof.Mat4.lean ====
/-
  REGION 4, the third projection: the array it leaves is the projection of the whole input arrays.

  The grid has 25 points; point t reads rows 2000 t … 2000 t + 1999 of the feature array (all 128 columns) and
  the whole 128 × 64 weight array, and writes rows 2000 t … 2000 t + 1999 of the output. Inside the block the
  body is one matrix product into a zero accumulator, so its entry (p, q) is row p of the block against column q of
  the weights: the same sum as entry (2000 t + p, q) of the whole projection. The 25 row blocks tile the 50000 rows,
  so the output array ends as the projection of the arrays the region found.
-/
import proofs.«170503_j72395968741626_1_alg».proof.Proof.Gen.KernelIdeal.Frame
import proofs.«170503_j72395968741626_1_alg».proof.Proof.Spec
import proofs.«170503_j72395968741626_1_alg».proof.Proof.LibPlainDot
import Idealize.ShloMosaic.Lib.Pipeline.Value
import Idealize.ShloMosaic.Lib.ValueIdx

set_option maxRecDepth 16384

noncomputable section

namespace Cert.KernelIdeal.Layer4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: row p of the feature block against column q of the weights. -/
theorem pay_apply (x0 : Vec Ideal S2000x128 .bf16) (x1 : Vec Ideal S128x64 .bf16) (p : Fin 2000) (q : Fin 64) :
    k4_pay1 x0 x1 (ix2 p q) = Spec.proj (M := 2000) (K := 128) (N := 64) x0 x1 (ix2 p q) := by
  rw [Spec.proj_apply]
  unfold k4_pay1
  rw [shapeCast_self, shapeCast_self]
  exact PlainDot.matmul_zero_apply (M := 2000) (K := 128) (N := 64) (φ₁ := .bf16) (φ₂ := .bf16)
    dot_S2000x128_S128x64_S2000x64_1_0_0_1_n_n.wf none x0 x1 p q

/-- The printed index maps over the grid: the feature and output windows move down the rows with the point, the
    weight window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK is block t of the projection of the arrays the region found. -/
theorem flushed_eq (c : Dev nD) (t : Fin cfg4.N) :
    (dat4 V c).flushed 2 t
      = ((cfg4.win 2).blk t).view.read (Elt Ideal) (Spec.proj (M := 50000) (K := 128) (N := 64) (V c main_v66) (V c main_v67)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  obtain ⟨e0, e1, e2, e3, e4, e5⟩ := idx_facts t
  refine funext fun (j : S2000x64.Idx) => ?_
  obtain ⟨p, q, rfl⟩ : ∃ (p : Fin 2000) (q : Fin 64), j = ix2 p q := ⟨j 0, j 1, eq_ix2 j⟩
  refine (pay_apply _ _ p q).trans ?_
  have hp : p.val < 2000 := p.isLt
  have hq : q.val < 64 := q.isLt
  have hx : ∀ k : Fin 128, ((cfg4.win 0).blk t).view.emb (ix2 p k)
      = (ix2 ((((cfg4.win 2).blk t).view.emb (ix2 p q)) 0) k : S50000x128.Idx) := fun k => by
    have hk : k.val < 128 := k.isLt
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have hw : ∀ k : Fin 128, ((cfg4.win 1).blk t).view.emb (ix2 k q)
      = (ix2 k ((((cfg4.win 2).blk t).view.emb (ix2 p q)) 1) : S128x64.Idx) := fun k => by
    have hk : k.val < 128 := k.isLt
    funext a; apply Fin.ext
    match a with
    | ⟨0, _⟩ => show win4_1.index t (0 : Fin 2) * 128 + 1 * k.val = k.val; omega
    | ⟨1, _⟩ => show win4_1.index t (1 : Fin 2) * 64 + 1 * q.val = win4_2.index t (1 : Fin 2) * 64 + 1 * q.val; omega
  refine (Spec.proj_congr (iblk4 V c 0 t) (V c main_v66) (iblk4 V c 1 t) (V c main_v67) p
    ((((cfg4.win 2).blk t).view.emb (ix2 p q)) 0) q ((((cfg4.win 2).blk t).view.emb (ix2 p q)) 1)
    (fun k => congrArg (V c main_v66) (hx k)) (fun k => congrArg (V c main_v67) (hw k))).trans ?_
  exact congrArg (Spec.proj (M := 50000) (K := 128) (N := 64) (V c main_v66) (V c main_v67))
    (eq_ix2 (((cfg4.win 2).blk t).view.emb (ix2 p q))).symm

/-- An index of the output array is in point t's block iff each coordinate is in the block's range on its axis. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v68).slice (win4_2.rect t)).set ↔ _
  rw [View.set_slice_whole, Rect.mem_set_unit]
  exact Iff.rfl

/-- Every row of the output lies in the block of the point its row index divided by 2000 names. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 25 := N_4
  let t : Fin cfg4.N := ⟨(i 0).val / 2000, by rw [hN]; omega⟩
  obtain ⟨e0, e1, e2, e3, e4, e5⟩ := idx_facts t
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- THE ARRAY after the region: the projection of the feature array by the weight array, as the region found them. -/
theorem final (c : Dev nD) :
    (dat4 V c).arrAt 2 cfg4.N = Spec.proj (M := 50000) (K := 128) (N := 64) (V c main_v66) (V c main_v67) :=
  (dat4 V c).arrAt_eq_of_cover 2 _ (fun t _ => flushed_eq V c t) cover

end Cert.KernelIdeal.Layer4

end
-- ==== Proof.LibColumn.lean ====
/-
  A column kept beside its matrix: the two layout steps of a keep-dimension reduction, read at an index.

  A vector of `a` entries cast to an `a × 1` column reads, at row p, the vector's entry p; an `a × 1` column broadcast
  over `b` columns reads, at (p, c), the column's entry at row p. Together: a per-row quantity (a row's maximum, a
  row's sum) placed beside every entry of its row.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast over the columns reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.Final5.lean ====
/-
  REGION 5, the last layer's bias, clip and row log-softmax: the array it leaves is that function of the whole arrays.

  Point t of the 25 reads rows 2000 t … 2000 t + 1999 of the aggregated array (all 64 columns) and the one-row bias and
  writes the same rows of the result. Every quantity of the body at entry (p, q) is a quantity of row p alone — the
  clipped row, its maximum, the sum of the exponentials of the row shifted by the maximum — so it is the whole-array
  function at entry (2000 t + p, q), whose row is the same row. The row blocks tile the 50000 rows.
-/
import proofs.«170503_j72395968741626_1_alg».proof.Proof.Gen.KernelIdeal.Frame
import proofs.«170503_j72395968741626_1_alg».proof.Proof.Spec
import proofs.«170503_j72395968741626_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The clip value and the maximum's start value: the float zero and minus infinity, read as extended reals. -/
abbrev zero : EReal := Ideal.ofBits .f32 0x00000000#32
abbrev ninf : EReal := Ideal.ofBits .f32 0xFF800000#32

/-- The body's first stage, the bias added and the result clipped at zero, is the block's bias-and-clip. -/
theorem clip_eq (x0 : Vec Ideal S2000x64 .f32) (x1 : Vec Ideal S1x64 .f32) :
    (maximumf (addf x0 (broadcastTo S2000x64 x1 broadcasts_S1x64_S2000x64))
        (broadcast S2000x64 (Scalar.ofBits (F := Ideal) .f32 0x00000000#32)) : FVec Ideal S2000x64 .f32)
      = Spec.biasClip (M := 2000) (N := 64) zero x0 x1 := by
  funext j
  obtain ⟨p, q, rfl⟩ : ∃ (p : Fin 2000) (q : Fin 64), j = ix2 p q := ⟨j 0, j 1, eq_ix2 j⟩
  show max (x0 (ix2 p q) + broadcastTo S2000x64 x1 broadcasts_S1x64_S2000x64 (ix2 p q)) _ = _
  rw [broadcastTo_1b_ab_apply]
  rfl

/-- The index a reduction over the columns inserts at row p, column l, is (p, l). -/
theorem lift_eq (p : Fin 2000) (l : Fin 64) :
    reduces_S2000x64_S2000.lift (ix1 p) l = (ix2 p l : S2000x64.Idx) :=
  funext fun a => Fin.ext (by
    match a with
    | ⟨0, _⟩ => rfl
    | ⟨1, _⟩ => rfl)

/-- The row maximum the body takes (from minus infinity over the 64 columns, then once more against minus infinity). -/
theorem rowmax_apply (H : FVec Ideal S2000x64 .f32) (p : Fin 2000) :
    (maximumf (broadcast S2000 (Scalar.ofBits (F := Ideal) .f32 0xFF800000#32))
        (multiReduction .maximumf [1] S2000 H 0xFF800000#32 reduces_S2000x64_S2000 (.inl rfl) rfl) : FVec Ideal S2000 .f32) (ix1 p)
      = Spec.rowMax (M := 2000) (N := 64) ninf H p := by
  show max ninf (multiReduction .maximumf [1] S2000 H 0xFF800000#32 reduces_S2000x64_S2000 (.inl rfl) rfl (ix1 p)) = _
  refine congrArg (max ninf) ?_
  refine (Ideal.multiReduction_maximumf_single H 0xFF800000#32 reduces_S2000x64_S2000 (.inl rfl) rfl (ix1 p)).trans ?_
  have hf : (fun l : Fin 64 => H (reduces_S2000x64_S2000.lift (ix1 p) l)) = fun l : Fin 64 => H (ix2 p l) :=
    funext fun l => congrArg H (lift_eq p l)
  exact congrArg (fun f : Fin 64 → EReal => (Finset.univ : Finset (Fin 64)).fold max ninf f) hf

/-- The row sum the body takes over the 64 columns. -/
theorem rowsum_apply (E : FVec Ideal S2000x64 .f32) (p : Fin 2000) :
    multiReduction .add [1] S2000 E 0x00000000#32 reduces_S2000x64_S2000 (.inl rfl) rfl (ix1 p)
      = ∑ l : Fin 64, E (ix2 p l) := by
  refine (Ideal.multiReduction_add_single E 0x00000000#32 reduces_S2000x64_S2000 (.inl rfl) rfl (ix1 p)).trans ?_
  show (∑ l : Fin 64, E (reduces_S2000x64_S2000.lift (ix1 p) l)) = _
  simp only [lift_eq]

/-- The body's stored value at entry (p, q) of the block: the log-softmax of the block's bias-and-clip. -/
theorem pay_apply (x0 : Vec Ideal S2000x64 .f32) (x1 : Vec Ideal S1x64 .f32) (p : Fin 2000) (q : Fin 64) :
    k5_pay1 x0 x1 (ix2 p q) = Spec.logSoftmax (M := 2000) (N := 64) ninf (Spec.biasClip (M := 2000) (N := 64) zero x0 x1) (ix2 p q) := by
  unfold k5_pay1
  rw [shapeCast_self, shapeCast_self, clip_eq]
  rw [Spec.logSoftmax_apply]
  generalize Spec.biasClip (M := 2000) (N := 64) zero x0 x1 = H
  -- the shift by the row maximum, at any column of row p
  have hshift : ∀ l : Fin 64,
      (subf H (broadcastTo S2000x64 (shapeCast S2000x1 (maximumf (broadcast S2000 (Scalar.ofBits (F := Ideal) .f32 0xFF800000#32))
        (multiReduction .maximumf [1] S2000 H 0xFF800000#32 reduces_S2000x64_S2000 (.inl rfl) rfl)) shapeCasts_S2000_S2000x1)
        broadcasts_S2000x1_S2000x64) : FVec Ideal S2000x64 .f32) (ix2 p l)
        = H (ix2 p l) - Spec.rowMax (M := 2000) (N := 64) ninf H p := fun l => by
    show H (ix2 p l) - broadcastTo S2000x64 (shapeCast S2000x1 _ shapeCasts_S2000_S2000x1) broadcasts_S2000x1_S2000x64 (ix2 p l) = _
    rw [Column.column_apply, rowmax_apply]
  generalize hS : (subf H (broadcastTo S2000x64 (shapeCast S2000x1 (maximumf (broadcast S2000 (Scalar.ofBits (F := Ideal) .f32 0xFF800000#32))
        (multiReduction .maximumf [1] S2000 H 0xFF800000#32 reduces_S2000x64_S2000 (.inl rfl) rfl)) shapeCasts_S2000_S2000x1)
        broadcasts_S2000x1_S2000x64) : FVec Ideal S2000x64 .f32) = S at hshift
  show S (ix2 p q) - broadcastTo S2000x64 (log (shapeCast S2000x1 (multiReduction .add [1] S2000 (exp S) 0x00000000#32 reduces_S2000x64_S2000 (.inl rfl) rfl) shapeCasts_S2000_S2000x1)) broadcasts_S2000x1_S2000x64 (ix2 p q) = _
  rw [Column.broadcastTo_a1_ab_apply]
  show S (ix2 p q) - Ideal.log (shapeCast S2000x1 (multiReduction .add [1] S2000 (exp S) 0x00000000#32 reduces_S2000x64_S2000 (.inl rfl) rfl) shapeCasts_S2000_S2000x1 (ix2 p (0 : Fin 1))) = _
  rw [Column.shapeCast_a_a1_apply, rowsum_apply, hshift q]
  refine congrArg (fun s => (H (ix2 p q) - Spec.rowMax (M := 2000) (N := 64) ninf H p) - Ideal.log s) ?_
  refine Finset.sum_congr rfl fun l _ => ?_
  show Ideal.exp (S (ix2 p l)) = _
  rw [hshift l]

/-- The printed index maps over the grid: the aggregated and output windows move down the rows with the point, the
    bias window stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT t WRITES BACK is block t of the log-softmax of the bias-and-clip of the arrays the region found. -/
theorem flushed_eq (c : Dev nD) (t : Fin cfg5.N) :
    (dat5 V c).flushed 2 t
      = ((cfg5.win 2).blk t).view.read (Elt Ideal)
          (Spec.logSoftmax (M := 50000) (N := 64) ninf (Spec.biasClip (M := 50000) (N := 64) zero (V c main_v82) (V c main_v83))) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  obtain ⟨e0, e1, e2, e3, e4, e5⟩ := idx_facts t
  refine funext fun (j : S2000x64.Idx) => ?_
  obtain ⟨p, q, rfl⟩ : ∃ (p : Fin 2000) (q : Fin 64), j = ix2 p q := ⟨j 0, j 1, eq_ix2 j⟩
  refine (pay_apply _ _ p q).trans ?_
  have hp : p.val < 2000 := p.isLt
  have hq : q.val < 64 := q.isLt
  have hx : ∀ l : Fin 64, ((cfg5.win 0).blk t).view.emb (ix2 p l)
      = (ix2 ((((cfg5.win 2).blk t).view.emb (ix2 p q)) 0) l : S50000x64.Idx) := fun l => by
    have hl : l.val < 64 := l.isLt
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 64 + 1 * l.val = l.val; omega
  have hb : ∀ l : Fin 64, ((cfg5.win 1).blk t).view.emb (ix2 (0 : Fin 1) l) = (ix2 (0 : Fin 1) l : S1x64.Idx) := fun l => by
    have hl : l.val < 64 := l.isLt
    funext a; apply Fin.ext
    match a with
    | ⟨0, _⟩ => show win5_1.index t (0 : Fin 2) * 1 + 1 * 0 = 0; omega
    | ⟨1, _⟩ => show win5_1.index t (1 : Fin 2) * 64 + 1 * l.val = l.val; omega
  have hi : (ix2 ((((cfg5.win 2).blk t).view.emb (ix2 p q)) 0) q : S50000x64.Idx) = ((cfg5.win 2).blk t).view.emb (ix2 p q) := by
    funext a; apply Fin.ext
    match a with
    | ⟨0, _⟩ => rfl
    | ⟨1, _⟩ => show q.val = win5_2.index t (1 : Fin 2) * 64 + 1 * q.val; omega
  refine (Spec.logSoftmax_congr_row ninf (Spec.biasClip (M := 2000) (N := 64) zero (iblk5 V c 0 t) (iblk5 V c 1 t))
    (Spec.biasClip (M := 50000) (N := 64) zero (V c main_v82) (V c main_v83)) p ((((cfg5.win 2).blk t).view.emb (ix2 p q)) 0)
    (fun l => Spec.biasClip_congr zero (iblk5 V c 0 t) (V c main_v82) (iblk5 V c 1 t) (V c main_v83) p
      ((((cfg5.win 2).blk t).view.emb (ix2 p q)) 0) l l (congrArg (V c main_v82) (hx l)) (congrArg (V c main_v83) (hb l))) q).trans ?_
  exact congrArg (Spec.logSoftmax (M := 50000) (N := 64) ninf (Spec.biasClip (M := 50000) (N := 64) zero (V c main_v82) (V c main_v83))) hi

/-- An index of the output array is in point t's block iff each coordinate is in the block's range on its axis. -/
theorem mem_blk (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v84).slice (win5_2.rect t)).set ↔ _
  rw [View.set_slice_whole, Rect.mem_set_unit]
  exact Iff.rfl

/-- Every row of the output lies in the block of the point its row index divided by 2000 names. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 25 := N_5
  let t : Fin cfg5.N := ⟨(i 0).val / 2000, by rw [hN]; omega⟩
  obtain ⟨e0, e1, e2, e3, e4, e5⟩ := idx_facts t
  have ht : t.val = (i 0).val / 2000 := rfl
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- THE ARRAY after the region: the row log-softmax of the bias-and-clip of the aggregated array and the bias row, as the
    region found them. -/
theorem final (c : Dev nD) :
    (dat5 V c).arrAt 2 cfg5.N
      = Spec.logSoftmax (M := 50000) (N := 64) ninf (Spec.biasClip (M := 50000) (N := 64) zero (V c main_v82) (V c main_v83)) :=
  (dat5 V c).arrAt_eq_of_cover 2 _ (fun t _ => flushed_eq V c t) cover

end Cert.KernelIdeal.Layer5

end
-- ==== Proof.KValue.lean ====
/-
  The kernel program's result as one function of its eight arguments.

  Reading the fold through the program from the result backwards: the result array is region 5's output, the row
  log-softmax of the bias-and-clip of the third aggregation; the third aggregation gathers region 4's output, the
  projection of region 3's output by the third weight array; and so on down to region 0, the projection of the
  feature array by the first weight array. The index vectors and the edge normalisation are those the first three
  host stretches left; each bias enters as one row; the format changes are the identity on the extended reals and are
  kept as written.
-/
import proofs.«170503_j72395968741626_1_alg».proof.Proof.KRun
import proofs.«170503_j72395968741626_1_alg».proof.Proof.KHost
import proofs.«170503_j72395968741626_1_alg».proof.Proof.KEntry
import proofs.«170503_j72395968741626_1_alg».proof.Proof.Mat0
import proofs.«170503_j72395968741626_1_alg».proof.Proof.Bias1
import proofs.«170503_j72395968741626_1_alg».proof.Proof.Mat2
import proofs.«170503_j72395968741626_1_alg».proof.Proof.Bias3
import proofs.«170503_j72395968741626_1_alg».proof.Proof.Mat4
import proofs.«170503_j72395968741626_1_alg».proof.Proof.Final5

set_option maxRecDepth 65536

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.HostSide

/-- The clip value and the maximum's start value. -/
abbrev zero : EReal := Ideal.ofBits .f32 0x00000000#32
abbrev ninf : EReal := Ideal.ofBits .f32 0xFF800000#32

/-- The edge normalisation from the edge array. -/
def normOf (e : IVec S2x800000 32) : FVec Ideal S850000 .f32 := norm (src e) (dst e) (dis (dst e))

/-- Layer 1's output: project the features, aggregate along the edges, add the bias, clip. -/
def layer1 (X : FVec Ideal S50000x512 .f32) (e : IVec S2x800000 32) (W1 : FVec Ideal S512x256 .f32) (b1 : FVec Ideal S256 .f32) :
    FVec Ideal S50000x256 .bf16 :=
  Spec.biasClip (M := 50000) (N := 256) zero
    (agg256 (src e) (dst e) (normOf e)
      (Spec.proj (M := 50000) (K := 512) (N := 256) (truncf .bf16 X bitsLt_bf16_f32 : FVec Ideal S50000x512 .bf16)
        (truncf .bf16 W1 bitsLt_bf16_f32 : FVec Ideal S512x256 .bf16)))
    (shapeCast S1x256 b1 shapeCasts_S256_S1x256 : FVec Ideal S1x256 .f32)

/-- Layer 2's output from layer 1's. -/
def layer2 (H1 : FVec Ideal S50000x256 .bf16) (e : IVec S2x800000 32) (W2 : FVec Ideal S256x128 .f32) (b2 : FVec Ideal S128 .f32) :
    FVec Ideal S50000x128 .bf16 :=
  Spec.biasClip (M := 50000) (N := 128) zero
    (agg128 (src e) (dst e) (normOf e)
      (Spec.proj (M := 50000) (K := 256) (N := 128) H1 (truncf .bf16 W2 bitsLt_bf16_f32 : FVec Ideal S256x128 .bf16)))
    (shapeCast S1x128 b2 shapeCasts_S128_S1x128 : FVec Ideal S1x128 .f32)

/-- The result from layer 2's output: the third layer, then the row log-softmax. -/
def layer3 (H2 : FVec Ideal S50000x128 .bf16) (e : IVec S2x800000 32) (W3 : FVec Ideal S128x64 .f32) (b3 : FVec Ideal S64 .f32) :
    FVec Ideal S50000x64 .f32 :=
  Spec.logSoftmax (M := 50000) (N := 64) ninf
    (Spec.biasClip (M := 50000) (N := 64) zero
      (agg64 (src e) (dst e) (normOf e)
        (Spec.proj (M := 50000) (K := 128) (N := 64) H2 (truncf .bf16 W3 bitsLt_bf16_f32 : FVec Ideal S128x64 .bf16)))
      (shapeCast S1x64 b3 shapeCasts_S64_S1x64 : FVec Ideal S1x64 .f32))

variable (m : (ℓ : Loc nD τ sig) → Buf (Elt Ideal) ℓ) (ρ : Dev nD → PrngReg)

/-! ## The index vectors and the normalisation at the three boundaries where they are read -/

theorem w3_v3 (c : Dev nD) : W3 m ρ c (Proc.devRef .tc main_v3) = src (m ((c.tc : Thread nD τ).loc main_arg1)) := entry_main_v3 (W0 m ρ c)
theorem w3_v6 (c : Dev nD) : W3 m ρ c (Proc.devRef .tc main_v6) = dst (m ((c.tc : Thread nD τ).loc main_arg1)) := entry_main_v6 (W0 m ρ c)
theorem w3_v29 (c : Dev nD) : W3 m ρ c (Proc.devRef .tc main_v29) = normOf (m ((c.tc : Thread nD τ).loc main_arg1)) := entry_main_v29 (W0 m ρ c)
theorem w4_v3 (c : Dev nD) : W4 m ρ c (Proc.devRef .tc main_v3) = src (m ((c.tc : Thread nD τ).loc main_arg1)) := (keep4_main_v3 m ρ c).trans (w3_v3 m ρ c)
theorem w4_v6 (c : Dev nD) : W4 m ρ c (Proc.devRef .tc main_v6) = dst (m ((c.tc : Thread nD τ).loc main_arg1)) := (keep4_main_v6 m ρ c).trans (w3_v6 m ρ c)
theorem w4_v29 (c : Dev nD) : W4 m ρ c (Proc.devRef .tc main_v29) = normOf (m ((c.tc : Thread nD τ).loc main_arg1)) := (keep4_main_v29 m ρ c).trans (w3_v29 m ρ c)
theorem w8_v3 (c : Dev nD) : W8 m ρ c (Proc.devRef .tc main_v3) = src (m ((c.tc : Thread nD τ).loc main_arg1)) := (keep8_main_v3 m ρ c).trans (w4_v3 m ρ c)
theorem w8_v6 (c : Dev nD) : W8 m ρ c (Proc.devRef .tc main_v6) = dst (m ((c.tc : Thread nD τ).loc main_arg1)) := (keep8_main_v6 m ρ c).trans (w4_v6 m ρ c)
theorem w8_v29 (c : Dev nD) : W8 m ρ c (Proc.devRef .tc main_v29) = normOf (m ((c.tc : Thread nD τ).loc main_arg1)) := (keep8_main_v29 m ρ c).trans (w4_v29 m ρ c)
theorem w12_v3 (c : Dev nD) : W12 m ρ c (Proc.devRef .tc main_v3) = src (m ((c.tc : Thread nD τ).loc main_arg1)) := (keep12_main_v3 m ρ c).trans (w8_v3 m ρ c)
theorem w12_v6 (c : Dev nD) : W12 m ρ c (Proc.devRef .tc main_v6) = dst (m ((c.tc : Thread nD τ).loc main_arg1)) := (keep12_main_v6 m ρ c).trans (w8_v6 m ρ c)
theorem w12_v29 (c : Dev nD) : W12 m ρ c (Proc.devRef .tc main_v29) = normOf (m ((c.tc : Thread nD τ).loc main_arg1)) := (keep12_main_v29 m ρ c).trans (w8_v29 m ρ c)

/-! ## The arguments where they are read -/

theorem w4_arg3 (c : Dev nD) : W4 m ρ c (Proc.devRef .tc main_arg3) = (m ((c.tc : Thread nD τ).loc main_arg3)) := keep_arg3 m ρ c
theorem w6_arg4 (c : Dev nD) : W6 m ρ c (Proc.devRef .tc main_arg4) = (m ((c.tc : Thread nD τ).loc main_arg4)) := keep_arg4 m ρ c
theorem w8_arg5 (c : Dev nD) : W8 m ρ c (Proc.devRef .tc main_arg5) = (m ((c.tc : Thread nD τ).loc main_arg5)) := keep_arg5 m ρ c
theorem w10_arg6 (c : Dev nD) : W10 m ρ c (Proc.devRef .tc main_arg6) = (m ((c.tc : Thread nD τ).loc main_arg6)) := keep_arg6 m ρ c
theorem w12_arg7 (c : Dev nD) : W12 m ρ c (Proc.devRef .tc main_arg7) = (m ((c.tc : Thread nD τ).loc main_arg7)) := keep_arg7 m ρ c

/-! ## The layers, boundary by boundary -/

/-- Region 0's output: the projection of the features by the first weights. -/
theorem w4_v32 (c : Dev nD) : W4 m ρ c (Proc.devRef .tc main_v32)
    = Spec.proj (M := 50000) (K := 512) (N := 256) (truncf .bf16 (m ((c.tc : Thread nD τ).loc main_arg0)) bitsLt_bf16_f32 : FVec Ideal S50000x512 .bf16)
        (truncf .bf16 (m ((c.tc : Thread nD τ).loc main_arg2)) bitsLt_bf16_f32 : FVec Ideal S512x256 .bf16) :=
  (W4_arr m ρ c 2).trans ((Layer0.final (V3 m ρ) c).trans
    (congrArg₂ (Spec.proj (M := 50000) (K := 512) (N := 256)) (entry_main_v30 (W0 m ρ c)) (entry_main_v31 (W0 m ρ c))))

/-- Region 1's output: layer 1. -/
theorem w6_v48 (c : Dev nD) : W6 m ρ c (Proc.devRef .tc main_v48) = layer1 (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Layer1.final (V5 m ρ) c).trans ?_)
  show Spec.biasClip (M := 50000) (N := 256) zero (StableHlo.after hostOps1 (W4 m ρ c) (Proc.devRef .tc main_v46))
    (StableHlo.after hostOps1 (W4 m ρ c) (Proc.devRef .tc main_v47)) = _
  rw [stretch_main_v46, stretch_main_v47, w4_v3, w4_v6, w4_v29, w4_v32, w4_arg3]
  rfl

/-- Region 2's output: the projection of layer 1 by the second weights. -/
theorem w8_v50 (c : Dev nD) : W8 m ρ c (Proc.devRef .tc main_v50)
    = Spec.proj (M := 50000) (K := 256) (N := 128) (layer1 (m ((c.tc : Thread nD τ).loc main_arg0)) (m ((c.tc : Thread nD τ).loc main_arg1)) (m ((c.tc : Thread nD τ).loc main_arg2)) (m ((c.tc : Thread nD τ).loc main_arg3)))
        (truncf .bf16 (m ((c.tc : Thread nD τ).loc main_arg4)) bitsLt_bf16_f32 : FVec Ideal S256x128 .bf16) := by
  refine (W8_arr m ρ c 2).trans ((Layer2.final (V7 m ρ) c).trans ?_)
  show Spec.proj (M := 50000) (K := 256) (N := 128) (W7 m ρ c (Proc.devRef .tc main_v48))
    (StableHlo.after hostOps2 (W6 m ρ c) (Proc.devRef .tc main_v49)) = _
  rw [keep7_main_v48, stretch_main_v49, w6_v48, w6_arg4]

/-- Region 3's output: layer 2. -/
theorem w10_v66 (c : Dev nD) : W10 m ρ c (Proc.devRef .tc main_v66)
    = layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  refine (W10_arr m ρ c 2).trans ((Layer3.final (V9 m ρ) c).trans ?_)
  show Spec.biasClip (M := 50000) (N := 128) zero (StableHlo.after hostOps3 (W8 m ρ c) (Proc.devRef .tc main_v64))
    (StableHlo.after hostOps3 (W8 m ρ c) (Proc.devRef .tc main_v65)) = _
  rw [stretch_main_v64, stretch_main_v65, w8_v3, w8_v6, w8_v29, w8_v50, w8_arg5]
  rfl

/-- Region 4's output: the projection of layer 2 by the third weights. -/
theorem w12_v68 (c : Dev nD) : W12 m ρ c (Proc.devRef .tc main_v68)
    = Spec.proj (M := 50000) (K := 128) (N := 64)
        (layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)))
        (truncf .bf16 (m ((c.tc : Thread nD τ).loc main_arg6)) bitsLt_bf16_f32 : FVec Ideal S128x64 .bf16) := by
  refine (W12_arr m ρ c 2).trans ((Layer4.final (V11 m ρ) c).trans ?_)
  show Spec.proj (M := 50000) (K := 128) (N := 64) (W11 m ρ c (Proc.devRef .tc main_v66))
    (StableHlo.after hostOps4 (W10 m ρ c) (Proc.devRef .tc main_v67)) = _
  rw [keep11_main_v66, stretch_main_v67, w10_v66, w10_arg6]

/-- THE RESULT: region 5's output, the third layer and the row log-softmax. -/
theorem w14_v84 (c : Dev nD) : W14 m ρ c (Proc.devRef .tc main_v84)
    = layer3 (layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) := by
  refine (W14_arr m ρ c 2).trans ((Layer5.final (V13 m ρ) c).trans ?_)
  show Spec.logSoftmax (M := 50000) (N := 64) ninf (Spec.biasClip (M := 50000) (N := 64) zero
    (StableHlo.after hostOps5 (W12 m ρ c) (Proc.devRef .tc main_v82))
    (StableHlo.after hostOps5 (W12 m ρ c) (Proc.devRef .tc main_v83))) = _
  rw [stretch_main_v82, stretch_main_v83, w12_v3, w12_v6, w12_v29, w12_v68, w12_arg7]
  rfl

end Cert.KernelIdeal.KValue

end
-- ==== Proof.RefStages.lean ====
/-
  The reference's straight line of 124 host operations, cut into seven stages.

  The fold of the operations' results over a list cut in two is the fold over the second part of the fold over the
  first, so the line can be read stage by stage: the index vectors with the degrees, the inverse square roots, the edge
  normalisation, the three layers, the row log-softmax.
-/
import proofs.«170503_j72395968741626_1_alg».proof.Proof.RefRun
import Idealize.ShloMosaic.Lib.StableHlo.Run

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- The fold over two lines run one after the other is the fold over the second of the fold over the first. -/
theorem after_append {τ : Topo} {sig : RefSig} {Val : EltTy → Type} :
    ∀ (l₁ l₂ : List (HloOp τ sig Val)) (V : Valuation τ sig Val), StableHlo.after (l₁ ++ l₂) V = StableHlo.after l₂ (StableHlo.after l₁ V)
  | [], _, _ => rfl
  | op :: l, l₂, V => by rw [List.cons_append, StableHlo.after_cons, StableHlo.after_cons, after_append l l₂]

variable {F : FTy → Type} [FloatOps F]

/-- A stage of the reference's operations: the index vectors and the degrees. -/
abbrev ops0a : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- A stage of the reference's operations: the inverse square roots of the degrees, zero where a degree is not positive. -/
abbrev ops0b : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- A stage of the reference's operations: the edge normalisation. -/
abbrev ops0c : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- A stage of the reference's operations: the first layer. -/
abbrev ops1 : List (HloOp τ sig (Elt F)) :=
  [ binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- A stage of the reference's operations: the second layer. -/
abbrev ops2 : List (HloOp τ sig (Elt F)) :=
  [ binary main_v47 main_arg4 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- A stage of the reference's operations: the third layer. -/
abbrev ops3 : List (HloOp τ sig (Elt F)) :=
  [ binary main_v65 main_arg6 main_v66 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x64 ![0, 1] bcast_S850000x1_S850000x64_0_1 : (⟨S850000x1, .f32⟩ : BufTy).Contents (Elt F) → (⟨S850000x64, .f32⟩ : BufTy).Contents (Elt F)),
    binary main_v73 main_v75 main_v76 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v77 (broadcastInDim S50000x64 ![] bcast_S_S50000x64 : (⟨S_, .f32⟩ : BufTy).Contents (Elt F) → (⟨S50000x64, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v82) (TRef.of (T := ⟨S50000x64, .f32⟩) main_call3_v0) (TRef.of (T := ⟨S50000x64, .f32⟩) main_v83) maximumf ]

/-- A part of the last stage: the row maximum. -/
abbrev ops4a : List (HloOp τ sig (Elt F)) :=
  [ TRef.nullary (TRef.of (T := ⟨S_, .f32⟩) main_call4_cst) (constant S_ .f32 0xFF800000#32),
    TRef.binary (TRef.of (T := ⟨S50000x64, .f32⟩) main_v83) (TRef.of (T := ⟨S_, .f32⟩) main_call4_cst) (TRef.of (T := ⟨S50000, .f32⟩) main_call4_v0) (fun x v => Host.reduce FloatOps.maximumf x v reducesTo_S50000x64_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf ]

/-- A part of the last stage: each row shifted by its maximum, and its exponentials. -/
abbrev ops4b : List (HloOp τ sig (Elt F)) :=
  [ TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x64, .f32⟩) main_call4_v4) (broadcastInDim S50000x64 ![0, 1] bcast_S50000x1_S50000x64_0_1),
    TRef.binary (TRef.of (T := ⟨S50000x64, .f32⟩) main_v83) (TRef.of (T := ⟨S50000x64, .f32⟩) main_call4_v4) (TRef.of (T := ⟨S50000x64, .f32⟩) main_call4_v5) subf,
    TRef.unary (TRef.of (T := ⟨S50000x64, .f32⟩) main_call4_v5) (TRef.of (T := ⟨S50000x64, .f32⟩) main_call4_v6) Host.exp,
    TRef.nullary (TRef.of (T := ⟨S_, .f32⟩) main_call4_cst_1) (constant S_ .f32 0x00000000#32) ]

/-- A part of the last stage: the row sum, its logarithm and the second shift. -/
abbrev ops4c : List (HloOp τ sig (Elt F)) :=
  [ TRef.binary (TRef.of (T := ⟨S50000x64, .f32⟩) main_call4_v6) (TRef.of (T := ⟨S_, .f32⟩) main_call4_cst_1) (TRef.of (T := ⟨S50000, .f32⟩) main_call4_v7) (fun x v => Host.reduceAdd x v reducesTo_S50000x64_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x64, .f32⟩) main_call4_v10) (broadcastInDim S50000x64 ![0, 1] bcast_S50000x1_S50000x64_0_1),
    TRef.binary (TRef.of (T := ⟨S50000x64, .f32⟩) main_call4_v5) (TRef.of (T := ⟨S50000x64, .f32⟩) main_call4_v10) (TRef.of (T := ⟨S50000x64, .f32⟩) main_v84) subf ]

/-- The last stage of the reference's operations, the row log-softmax: its three parts in order. -/
abbrev ops4 : List (HloOp τ sig (Elt F)) := ops4a ++ (ops4b ++ ops4c)

/-- The reference's line is its seven stages in order. -/
theorem ops_split : (ops : List (HloOp τ sig (Elt F))) = ops0a ++ (ops0b ++ (ops0c ++ (ops1 ++ (ops2 ++ (ops3 ++ ops4))))) := rfl

/-- So the fold over the whole line is the stages' folds, one after the other. -/
theorem after_ops (V : Valuation τ sig (Elt F)) :
    StableHlo.after ops V = StableHlo.after ops4 (StableHlo.after ops3 (StableHlo.after ops2 (StableHlo.after ops1
      (StableHlo.after ops0c (StableHlo.after ops0b (StableHlo.after ops0a V)))))) := by
  rw [ops_split, after_append, after_append, after_append, after_append, after_append, after_append]

end Cert.ReferenceIdeal.RefSide

end
-- ==== Proof.RefFuncs.lean ====
/-
  The reference's host computations, named: the index vectors, the degrees, the edge normalisation, one aggregation
  along the edges per width, the bias-and-clip as the host spells it, and the row log-softmax as the host spells it.
-/
import proofs.«170503_j72395968741626_1_alg».proof.Proof.Gen.ReferenceIdeal
import Idealize.ShloMosaic.PureOps.Ideal

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen

/-! ## The host functions, named -/

/-- The source indices: row 0 of the edge array, then the nodes themselves (the self loops). -/
def src (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The destination indices: row 1 of the edge array, then the nodes themselves. -/
def dst (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A negative index counted from the end: 50000 added where the index is below zero. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The node degrees: a one summed into each edge's destination. -/
def deg (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- The inverse square root of each degree, zero where the degree is not positive. -/
def dis (d : IVec S850000 32) : FVec Ideal S50000 .f32 :=
  select (cmpf .ogt (deg d) (broadcastInDim S50000 ![] bcast_S_S50000 (constant (F := Ideal) S_ .f32 0x00000000#32)))
    (Host.rsqrt (deg d))
    (broadcastInDim S50000 ![] bcast_S_S50000 (id (constant (F := Ideal) S_ .f32 0x00000000#32)))

/-- Each edge's normalisation: the inverse square roots of the degrees at its two ends, multiplied. -/
def norm (s d : IVec S850000 32) (dis : FVec Ideal S50000 .f32) : FVec Ideal S850000 .f32 :=
  mulf
    (Host.gather gather_S50000_S850000x1_S850000_n_0_n_n_0_1_1 dis (broadcastInDim S850000x1 ![0] bcast_S850000_S850000x1_0 (wrap s)))
    (Host.gather gather_S50000_S850000x1_S850000_n_0_n_n_0_1_1 dis (broadcastInDim S850000x1 ![0] bcast_S850000_S850000x1_0 (wrap d)))

/-- One aggregation at width 256: each edge's source row of `H`, scaled by the edge's normalisation, summed into the
    edge's destination row. -/
def agg256 (s d : IVec S850000 32) (n : FVec Ideal S850000 .f32) (H : FVec Ideal S50000x256 .f32) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf
      (Host.gather gather_S50000x256_S850000x1_S850000x256_1_0_n_n_0_1_1256 H (broadcastInDim S850000x1 ![0] bcast_S850000_S850000x1_0 (wrap s)))
      (broadcastInDim S850000x256 ![0, 1] bcast_S850000x1_S850000x256_0_1
        (broadcastInDim S850000x1 ![0] bcast_S850000_S850000x1_0 n)))

/-- The bias added along the rows and the result clipped at zero, as the host spells it at width 256. -/
def clip256 (A : FVec Ideal S50000x256 .f32) (b : FVec Ideal S256 .f32) : FVec Ideal S50000x256 .f32 :=
  maximumf
    (addf A (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- One aggregation at width 128: each edge's source row of `H`, scaled by the edge's normalisation, summed into the
    edge's destination row. -/
def agg128 (s d : IVec S850000 32) (n : FVec Ideal S850000 .f32) (H : FVec Ideal S50000x128 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf
      (Host.gather gather_S50000x128_S850000x1_S850000x128_1_0_n_n_0_1_1128 H (broadcastInDim S850000x1 ![0] bcast_S850000_S850000x1_0 (wrap s)))
      (broadcastInDim S850000x128 ![0, 1] bcast_S850000x1_S850000x128_0_1
        (broadcastInDim S850000x1 ![0] bcast_S850000_S850000x1_0 n)))

/-- The bias added along the rows and the result clipped at zero, as the host spells it at width 128. -/
def clip128 (A : FVec Ideal S50000x128 .f32) (b : FVec Ideal S128 .f32) : FVec Ideal S50000x128 .f32 :=
  maximumf
    (addf A (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- One aggregation at width 64: each edge's source row of `H`, scaled by the edge's normalisation, summed into the
    edge's destination row. -/
def agg64 (s d : IVec S850000 32) (n : FVec Ideal S850000 .f32) (H : FVec Ideal S50000x64 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf
      (Host.gather gather_S50000x64_S850000x1_S850000x64_1_0_n_n_0_1_164 H (broadcastInDim S850000x1 ![0] bcast_S850000_S850000x1_0 (wrap s)))
      (broadcastInDim S850000x64 ![0, 1] bcast_S850000x1_S850000x64_0_1
        (broadcastInDim S850000x1 ![0] bcast_S850000_S850000x1_0 n)))

/-- The bias added along the rows and the result clipped at zero, as the host spells it at width 64. -/
def clip64 (A : FVec Ideal S50000x64 .f32) (b : FVec Ideal S64 .f32) : FVec Ideal S50000x64 .f32 :=
  maximumf
    (addf A (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The row maximum as the host takes it: from minus infinity over the columns, then once more against minus infinity. -/
def rmax (H : FVec Ideal S50000x64 .f32) : FVec Ideal S50000 .f32 :=
  maximumf (broadcastInDim S50000 ![] bcast_S_S50000 (constant (F := Ideal) S_ .f32 0xFF800000#32))
    (Host.reduce FloatOps.maximumf H (constant (F := Ideal) S_ .f32 0xFF800000#32) reducesTo_S50000x64_S50000_d1 h_S_)

/-- Each row shifted by its maximum. -/
def shifted (H : FVec Ideal S50000x64 .f32) : FVec Ideal S50000x64 .f32 :=
  subf H (broadcastInDim S50000x64 ![0, 1] bcast_S50000x1_S50000x64_0_1 (broadcastInDim S50000x1 ![0] bcast_S50000_S50000x1_0 (rmax H)))

/-- The row log-softmax as the host spells it: the shifted row less the logarithm of the sum of its exponentials. -/
def lsm (H : FVec Ideal S50000x64 .f32) : FVec Ideal S50000x64 .f32 :=
  subf (shifted H) (broadcastInDim S50000x64 ![0, 1] bcast_S50000x1_S50000x64_0_1
    (Host.log (broadcastInDim S50000x1 ![0] bcast_S50000_S50000x1_0
      (Host.reduceAdd (Host.exp (shifted H)) (constant (F := Ideal) S_ .f32 0x00000000#32) reducesTo_S50000x64_S50000_d1 h_S_))))

end Cert.ReferenceIdeal.RefSide

end
-- ==== Proof.RefStage0.lean ====
/-
  The reference's three opening stages from any contents: the index vectors and the edge normalisation, from the edge
  argument.
-/
import proofs.«170503_j72395968741626_1_alg».proof.Proof.RefStages
import proofs.«170503_j72395968741626_1_alg».proof.Proof.RefFuncs

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- No operation of the stage writes the buffer: each operation's one result is another reference. -/
macro "keep_stage" : tactic =>
  `(tactic| exact StableHlo.after_of_forall_not_mem _ _ (List.forall_iff_forall_mem.mp (by
      simp only [ops0a, ops0b, ops0c, ops1, ops2, ops3, ops4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The three opening stages from any contents -/

theorem s0_main_v3 (W : Valuation τ sig (Elt Ideal)) :
    StableHlo.after (ops0a (F := Ideal)) W (Proc.devRef .tc main_v3) = src (W (Proc.devRef .tc main_arg1)) := by
  after_results_simp <;> rfl
theorem s0_main_v6 (W : Valuation τ sig (Elt Ideal)) :
    StableHlo.after (ops0a (F := Ideal)) W (Proc.devRef .tc main_v6) = dst (W (Proc.devRef .tc main_arg1)) := by
  after_results_simp <;> rfl
theorem s0_main_v12 (W : Valuation τ sig (Elt Ideal)) :
    StableHlo.after (ops0a (F := Ideal)) W (Proc.devRef .tc main_v12)
      = cmpf .ogt (deg (dst (W (Proc.devRef .tc main_arg1)))) (broadcastInDim S50000 ![] bcast_S_S50000 (constant (F := Ideal) S_ .f32 0x00000000#32)) := by
  after_results_simp <;> rfl
theorem s0_main_v13 (W : Valuation τ sig (Elt Ideal)) :
    StableHlo.after (ops0a (F := Ideal)) W (Proc.devRef .tc main_v13) = Host.rsqrt (deg (dst (W (Proc.devRef .tc main_arg1)))) := by
  after_results_simp <;> rfl
theorem s0_main_cst_2 (W : Valuation τ sig (Elt Ideal)) :
    StableHlo.after (ops0a (F := Ideal)) W (Proc.devRef .tc main_cst_2) = constant (F := Ideal) S_ .f32 0x00000000#32 := by
  after_results_simp <;> rfl
theorem s1_main_v14 (W : Valuation τ sig (Elt Ideal)) :
    StableHlo.after (ops0b (F := Ideal)) W (Proc.devRef .tc main_v14)
      = select (W (Proc.devRef .tc main_v12)) (W (Proc.devRef .tc main_v13) : FVec Ideal S50000 .f32)
          (broadcastInDim S50000 ![] bcast_S_S50000 (id (W (Proc.devRef .tc main_cst_2) : FVec Ideal S_ .f32))) := by
  after_results_simp <;> rfl
theorem s2_main_v29 (W : Valuation τ sig (Elt Ideal)) :
    StableHlo.after (ops0c (F := Ideal)) W (Proc.devRef .tc main_v29)
      = norm (W (Proc.devRef .tc main_v3)) (W (Proc.devRef .tc main_v6)) (W (Proc.devRef .tc main_v14)) := by
  after_results_simp <;> rfl

/-! ## What the first layer finds -/

theorem entry_main_v3 (W : Valuation τ sig (Elt Ideal)) :
    StableHlo.after (ops0c (F := Ideal)) (StableHlo.after ops0b (StableHlo.after ops0a W)) (Proc.devRef .tc main_v3)
      = src (W (Proc.devRef .tc main_arg1)) :=
  (by keep_stage : StableHlo.after (ops0c (F := Ideal)) (StableHlo.after ops0b (StableHlo.after ops0a W)) (Proc.devRef .tc main_v3)
      = StableHlo.after ops0b (StableHlo.after ops0a W) (Proc.devRef .tc main_v3)).trans
    ((by keep_stage : StableHlo.after (ops0b (F := Ideal)) (StableHlo.after ops0a W) (Proc.devRef .tc main_v3)
      = StableHlo.after ops0a W (Proc.devRef .tc main_v3)).trans (s0_main_v3 W))
theorem entry_main_v6 (W : Valuation τ sig (Elt Ideal)) :
    StableHlo.after (ops0c (F := Ideal)) (StableHlo.after ops0b (StableHlo.after ops0a W)) (Proc.devRef .tc main_v6)
      = dst (W (Proc.devRef .tc main_arg1)) :=
  (by keep_stage : StableHlo.after (ops0c (F := Ideal)) (StableHlo.after ops0b (StableHlo.after ops0a W)) (Proc.devRef .tc main_v6)
      = StableHlo.after ops0b (StableHlo.after ops0a W) (Proc.devRef .tc main_v6)).trans
    ((by keep_stage : StableHlo.after (ops0b (F := Ideal)) (StableHlo.after ops0a W) (Proc.devRef .tc main_v6)
      = StableHlo.after ops0a W (Proc.devRef .tc main_v6)).trans (s0_main_v6 W))
theorem entry_main_v29 (W : Valuation τ sig (Elt Ideal)) :
    StableHlo.after (ops0c (F := Ideal)) (StableHlo.after ops0b (StableHlo.after ops0a W)) (Proc.devRef .tc main_v29)
      = norm (src (W (Proc.devRef .tc main_arg1))) (dst (W (Proc.devRef .tc main_arg1))) (dis (dst (W (Proc.devRef .tc main_arg1)))) := by
  have h3 : StableHlo.after (ops0b (F := Ideal)) (StableHlo.after ops0a W) (Proc.devRef .tc main_v3)
      = StableHlo.after ops0a W (Proc.devRef .tc main_v3) := by keep_stage
  have h6 : StableHlo.after (ops0b (F := Ideal)) (StableHlo.after ops0a W) (Proc.devRef .tc main_v6)
      = StableHlo.after ops0a W (Proc.devRef .tc main_v6) := by keep_stage
  rw [s2_main_v29, s1_main_v14, h3, h6, s0_main_v3, s0_main_v6, s0_main_v12, s0_main_v13, s0_main_cst_2]
  rfl

end Cert.ReferenceIdeal.RefSide

end
-- ==== Proof.RefStage1.lean ====
/-
  The reference's first layer from any contents.
-/
import proofs.«170503_j72395968741626_1_alg».proof.Proof.RefStages
import proofs.«170503_j72395968741626_1_alg».proof.Proof.RefFuncs

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- Stage 1 from any contents `W`: project, aggregate along the edges, add the bias, clip. -/
theorem stage1_main_v47 (W : Valuation τ sig (Elt Ideal)) :
    StableHlo.after (ops1 (F := Ideal)) W (Proc.devRef .tc main_v47)
      = clip256 (agg256 (W (Proc.devRef .tc main_v3)) (W (Proc.devRef .tc main_v6)) (W (Proc.devRef .tc main_v29))
          (Host.dotGeneral (φ₁ := .f32) (φ₂ := .f32) dot_S50000x512_S512x256_S50000x256_1_0_0_1_n_n none (W (Proc.devRef .tc main_arg0) : FVec Ideal S50000x512 .f32) (W (Proc.devRef .tc main_arg2))))
          (W (Proc.devRef .tc main_arg3)) := by
  after_results_simp <;> rfl

end Cert.ReferenceIdeal.RefSide

end
-- ==== Proof.RefStage2.lean ====
/-
  The reference's second layer from any contents.
-/
import proofs.«170503_j72395968741626_1_alg».proof.Proof.RefStages
import proofs.«170503_j72395968741626_1_alg».proof.Proof.RefFuncs

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- Stage 2 from any contents `W`: project, aggregate along the edges, add the bias, clip. -/
theorem stage2_main_v65 (W : Valuation τ sig (Elt Ideal)) :
    StableHlo.after (ops2 (F := Ideal)) W (Proc.devRef .tc main_v65)
      = clip128 (agg128 (W (Proc.devRef .tc main_v3)) (W (Proc.devRef .tc main_v6)) (W (Proc.devRef .tc main_v29))
          (Host.dotGeneral (φ₁ := .f32) (φ₂ := .f32) dot_S50000x256_S256x128_S50000x128_1_0_0_1_n_n none (W (Proc.devRef .tc main_v47) : FVec Ideal S50000x256 .f32) (W (Proc.devRef .tc main_arg4))))
          (W (Proc.devRef .tc main_arg5)) := by
  after_results_simp <;> rfl

end Cert.ReferenceIdeal.RefSide

end
-- ==== Proof.RefStage3.lean ====
/-
  The reference's third layer from any contents.
-/
import proofs.«170503_j72395968741626_1_alg».proof.Proof.RefStages
import proofs.«170503_j72395968741626_1_alg».proof.Proof.RefFuncs

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- Stage 3 from any contents `W`: project, aggregate along the edges, add the bias, clip. -/
theorem stage3_main_v83 (W : Valuation τ sig (Elt Ideal)) :
    StableHlo.after (ops3 (F := Ideal)) W (Proc.devRef .tc main_v83)
      = clip64 (agg64 (W (Proc.devRef .tc main_v3)) (W (Proc.devRef .tc main_v6)) (W (Proc.devRef .tc main_v29))
          (Host.dotGeneral (φ₁ := .f32) (φ₂ := .f32) dot_S50000x128_S128x64_S50000x64_1_0_0_1_n_n none (W (Proc.devRef .tc main_v65) : FVec Ideal S50000x128 .f32) (W (Proc.devRef .tc main_arg6))))
          (W (Proc.devRef .tc main_arg7)) := by
  after_results_simp <;> rfl

end Cert.ReferenceIdeal.RefSide

end
-- ==== Proof.RefStage4.lean ====
/-
  The reference's last stage from any contents: the row log-softmax, in three parts — the row maximum; the shift and the
  exponentials; the row sum, its logarithm and the second shift.
-/
import proofs.«170503_j72395968741626_1_alg».proof.Proof.RefStages
import proofs.«170503_j72395968741626_1_alg».proof.Proof.RefFuncs

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-! ## The two parts that reduce over the columns, for ANY reducing function

The row maximum and the row sum are folds over the 64 columns of each of 50000 rows. What the operations around them do —
broadcast a start value, take a maximum against it, place a per-row value beside its row — does not depend on what the
fold computes, so it is read with the fold left as an arbitrary function `g` of the array and the start value. -/

section Generic
variable {F : FTy → Type} [FloatOps F]

/-- The first part with `g` in the reduction's place. -/
abbrev ops4aG (g : (⟨S50000x64, .f32⟩ : BufTy).Contents (Elt F) → (⟨S_, .f32⟩ : BufTy).Contents (Elt F) → (⟨S50000, .f32⟩ : BufTy).Contents (Elt F)) : List (HloOp τ sig (Elt F)) :=
  [ TRef.nullary (TRef.of (T := ⟨S_, .f32⟩) main_call4_cst) (constant S_ .f32 0xFF800000#32),
    TRef.binary (TRef.of (T := ⟨S50000x64, .f32⟩) main_v83) (TRef.of (T := ⟨S_, .f32⟩) main_call4_cst) (TRef.of (T := ⟨S50000, .f32⟩) main_call4_v0) g,
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf ]

/-- The last part with `g` in the reduction's place. -/
abbrev ops4cG (g : (⟨S50000x64, .f32⟩ : BufTy).Contents (Elt F) → (⟨S_, .f32⟩ : BufTy).Contents (Elt F) → (⟨S50000, .f32⟩ : BufTy).Contents (Elt F)) : List (HloOp τ sig (Elt F)) :=
  [ TRef.binary (TRef.of (T := ⟨S50000x64, .f32⟩) main_call4_v6) (TRef.of (T := ⟨S_, .f32⟩) main_call4_cst_1) (TRef.of (T := ⟨S50000, .f32⟩) main_call4_v7) g,
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x64, .f32⟩) main_call4_v10) (broadcastInDim S50000x64 ![0, 1] bcast_S50000x1_S50000x64_0_1),
    TRef.binary (TRef.of (T := ⟨S50000x64, .f32⟩) main_call4_v5) (TRef.of (T := ⟨S50000x64, .f32⟩) main_call4_v10) (TRef.of (T := ⟨S50000x64, .f32⟩) main_v84) subf ]

theorem ops4a_eq : (ops4a : List (HloOp τ sig (Elt F))) = ops4aG (fun x v => Host.reduce FloatOps.maximumf x v reducesTo_S50000x64_S50000_d1 h_S_) := rfl
theorem ops4c_eq : (ops4c : List (HloOp τ sig (Elt F))) = ops4cG (fun x v => Host.reduceAdd x v reducesTo_S50000x64_S50000_d1 h_S_) := rfl

end Generic

theorem s4aG (g : (⟨S50000x64, .f32⟩ : BufTy).Contents (Elt Ideal) → (⟨S_, .f32⟩ : BufTy).Contents (Elt Ideal) → (⟨S50000, .f32⟩ : BufTy).Contents (Elt Ideal)) (W : Valuation τ sig (Elt Ideal)) :
    StableHlo.after (ops4aG (F := Ideal) g) W (Proc.devRef .tc main_call4_v2)
      = (maximumf (broadcastInDim S50000 ![] bcast_S_S50000 (constant (F := Ideal) S_ .f32 0xFF800000#32))
          (g (W (Proc.devRef .tc main_v83)) (constant (F := Ideal) S_ .f32 0xFF800000#32)) : FVec Ideal S50000 .f32) := by
  after_results_simp <;> rfl

theorem s4cG (g : (⟨S50000x64, .f32⟩ : BufTy).Contents (Elt Ideal) → (⟨S_, .f32⟩ : BufTy).Contents (Elt Ideal) → (⟨S50000, .f32⟩ : BufTy).Contents (Elt Ideal)) (W : Valuation τ sig (Elt Ideal)) :
    StableHlo.after (ops4cG (F := Ideal) g) W (Proc.devRef .tc main_v84)
      = (subf (W (Proc.devRef .tc main_call4_v5) : FVec Ideal S50000x64 .f32)
          (broadcastInDim S50000x64 ![0, 1] bcast_S50000x1_S50000x64_0_1
            (Host.log (broadcastInDim S50000x1 ![0] bcast_S50000_S50000x1_0
              (g (W (Proc.devRef .tc main_call4_v6)) (W (Proc.devRef .tc main_call4_cst_1)))))) : FVec Ideal S50000x64 .f32) := by
  after_results_simp <;> rfl

/-! ## The last stage, part by part, from any contents -/

theorem s4a_rmax (W : Valuation τ sig (Elt Ideal)) :
    StableHlo.after (ops4a (F := Ideal)) W (Proc.devRef .tc main_call4_v2) = rmax (W (Proc.devRef .tc main_v83)) := by
  rw [ops4a_eq (F := Ideal), s4aG]; rfl
theorem s4b_shifted (W : Valuation τ sig (Elt Ideal)) :
    StableHlo.after (ops4b (F := Ideal)) W (Proc.devRef .tc main_call4_v5)
      = (subf (W (Proc.devRef .tc main_v83) : FVec Ideal S50000x64 .f32)
          (broadcastInDim S50000x64 ![0, 1] bcast_S50000x1_S50000x64_0_1
            (broadcastInDim S50000x1 ![0] bcast_S50000_S50000x1_0 (W (Proc.devRef .tc main_call4_v2) : FVec Ideal S50000 .f32))) : FVec Ideal S50000x64 .f32) := by
  after_results_simp <;> rfl
theorem s4b_exp (W : Valuation τ sig (Elt Ideal)) :
    StableHlo.after (ops4b (F := Ideal)) W (Proc.devRef .tc main_call4_v6)
      = (Host.exp (subf (W (Proc.devRef .tc main_v83) : FVec Ideal S50000x64 .f32)
          (broadcastInDim S50000x64 ![0, 1] bcast_S50000x1_S50000x64_0_1
            (broadcastInDim S50000x1 ![0] bcast_S50000_S50000x1_0 (W (Proc.devRef .tc main_call4_v2) : FVec Ideal S50000 .f32)))) : FVec Ideal S50000x64 .f32) := by
  after_results_simp <;> rfl
theorem s4b_zero (W : Valuation τ sig (Elt Ideal)) :
    StableHlo.after (ops4b (F := Ideal)) W (Proc.devRef .tc main_call4_cst_1) = (constant (F := Ideal) S_ .f32 0x00000000#32 : FVec Ideal S_ .f32) := by
  after_results_simp <;> rfl
theorem s4c_main_v84 (W : Valuation τ sig (Elt Ideal)) :
    StableHlo.after (ops4c (F := Ideal)) W (Proc.devRef .tc main_v84)
      = (subf (W (Proc.devRef .tc main_call4_v5) : FVec Ideal S50000x64 .f32)
          (broadcastInDim S50000x64 ![0, 1] bcast_S50000x1_S50000x64_0_1
            (Host.log (broadcastInDim S50000x1 ![0] bcast_S50000_S50000x1_0
              (Host.reduceAdd (W (Proc.devRef .tc main_call4_v6) : FVec Ideal S50000x64 .f32)
                (W (Proc.devRef .tc main_call4_cst_1) : FVec Ideal S_ .f32) reducesTo_S50000x64_S50000_d1 h_S_)))) : FVec Ideal S50000x64 .f32) := by
  rw [ops4c_eq (F := Ideal), s4cG]

/-- The last stage from any contents `W`: the row log-softmax of the third layer's output. -/
theorem stage4_main_v84 (W : Valuation τ sig (Elt Ideal)) :
    StableHlo.after (ops4 (F := Ideal)) W (Proc.devRef .tc main_v84) = lsm (W (Proc.devRef .tc main_v83)) := by
  have h83 : StableHlo.after (ops4a (F := Ideal)) W (Proc.devRef .tc main_v83) = W (Proc.devRef .tc main_v83) := by
    exact StableHlo.after_of_forall_not_mem _ _ (List.forall_iff_forall_mem.mp (by
      simp only [ops4a, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  show StableHlo.after (ops4a ++ (ops4b ++ ops4c)) W (Proc.devRef .tc main_v84) = _
  rw [after_append, after_append, s4c_main_v84, s4b_shifted, s4b_exp, s4b_zero, s4a_rmax, h83]
  rfl

end Cert.ReferenceIdeal.RefSide

end
-- ==== Proof.RefValue.lean ====
/-
  The reference's result as one function of its eight arguments, and its run.

  Stage by stage from the launch contents: the first three stages leave the index vectors and the edge normalisation;
  each layer projects what the layer before left, aggregates along the edges, adds its bias and clips; the last stage
  takes the row log-softmax. The index vectors, the normalisation and the arguments are read at the stages that need
  them; no stage in between writes them.
-/
import proofs.«170503_j72395968741626_1_alg».proof.Proof.RefStage0
import proofs.«170503_j72395968741626_1_alg».proof.Proof.RefStage1
import proofs.«170503_j72395968741626_1_alg».proof.Proof.RefStage2
import proofs.«170503_j72395968741626_1_alg».proof.Proof.RefStage3
import proofs.«170503_j72395968741626_1_alg».proof.Proof.RefStage4

set_option maxRecDepth 65536

noncomputable section

namespace Cert.ReferenceIdeal.RefSide

open Idealize.ShloMosaic Idealize.ShloMosaic.TcCoe Idealize.SL.Sem Idealize.ShloMosaic.StableHlo
open Cert.ReferenceIdeal Cert.ReferenceIdeal.Gen Cert.ReferenceIdeal.ValueP

/-- The edge normalisation from the edge array. -/
def normOf (e : IVec S2x800000 32) : FVec Ideal S850000 .f32 := norm (src e) (dst e) (dis (dst e))

/-- Layer 1's output: project the features, aggregate along the edges, add the bias, clip. -/
def layer1 (X : FVec Ideal S50000x512 .f32) (e : IVec S2x800000 32) (W1 : FVec Ideal S512x256 .f32) (b1 : FVec Ideal S256 .f32) :
    FVec Ideal S50000x256 .f32 :=
  clip256 (agg256 (src e) (dst e) (normOf e) (Host.dotGeneral dot_S50000x512_S512x256_S50000x256_1_0_0_1_n_n none X W1)) b1

/-- Layer 2's output from layer 1's. -/
def layer2 (H1 : FVec Ideal S50000x256 .f32) (e : IVec S2x800000 32) (W2 : FVec Ideal S256x128 .f32) (b2 : FVec Ideal S128 .f32) :
    FVec Ideal S50000x128 .f32 :=
  clip128 (agg128 (src e) (dst e) (normOf e) (Host.dotGeneral dot_S50000x256_S256x128_S50000x128_1_0_0_1_n_n none H1 W2)) b2

/-- The result from layer 2's output: the third layer, then the row log-softmax. -/
def layer3 (H2 : FVec Ideal S50000x128 .f32) (e : IVec S2x800000 32) (W3 : FVec Ideal S128x64 .f32) (b3 : FVec Ideal S64 .f32) :
    FVec Ideal S50000x64 .f32 :=
  lsm (clip64 (agg64 (src e) (dst e) (normOf e) (Host.dotGeneral dot_S50000x128_S128x64_S50000x64_1_0_0_1_n_n none H2 W3)) b3)

variable (m : (ℓ : Loc nD τ sig) → Buf (Elt Ideal) ℓ)

/-- The contents after each stage, from the launch contents. -/
abbrev U0 (c : Dev nD) : Valuation τ sig (Elt Ideal) := launchContents m c
abbrev U1 (c : Dev nD) : Valuation τ sig (Elt Ideal) := StableHlo.after ops0a (U0 m c)
abbrev U2 (c : Dev nD) : Valuation τ sig (Elt Ideal) := StableHlo.after ops0b (U1 m c)
abbrev U3 (c : Dev nD) : Valuation τ sig (Elt Ideal) := StableHlo.after ops0c (U2 m c)
abbrev U4 (c : Dev nD) : Valuation τ sig (Elt Ideal) := StableHlo.after ops1 (U3 m c)
abbrev U5 (c : Dev nD) : Valuation τ sig (Elt Ideal) := StableHlo.after ops2 (U4 m c)
abbrev U6 (c : Dev nD) : Valuation τ sig (Elt Ideal) := StableHlo.after ops3 (U5 m c)
abbrev U7 (c : Dev nD) : Valuation τ sig (Elt Ideal) := StableHlo.after ops4 (U6 m c)

/-! ## What each stage finds -/

theorem u3_main_v3 (c : Dev nD) : U3 m c (Proc.devRef .tc main_v3) = src (m ((c.tc : Thread nD τ).loc main_arg1)) := entry_main_v3 (U0 m c)
theorem u4_main_v3 (c : Dev nD) : U4 m c (Proc.devRef .tc main_v3) = src (m ((c.tc : Thread nD τ).loc main_arg1)) := (by keep_stage : U4 m c (Proc.devRef .tc main_v3) = U3 m c (Proc.devRef .tc main_v3)).trans (u3_main_v3 m c)
theorem u5_main_v3 (c : Dev nD) : U5 m c (Proc.devRef .tc main_v3) = src (m ((c.tc : Thread nD τ).loc main_arg1)) := (by keep_stage : U5 m c (Proc.devRef .tc main_v3) = U4 m c (Proc.devRef .tc main_v3)).trans (u4_main_v3 m c)
theorem u3_main_v6 (c : Dev nD) : U3 m c (Proc.devRef .tc main_v6) = dst (m ((c.tc : Thread nD τ).loc main_arg1)) := entry_main_v6 (U0 m c)
theorem u4_main_v6 (c : Dev nD) : U4 m c (Proc.devRef .tc main_v6) = dst (m ((c.tc : Thread nD τ).loc main_arg1)) := (by keep_stage : U4 m c (Proc.devRef .tc main_v6) = U3 m c (Proc.devRef .tc main_v6)).trans (u3_main_v6 m c)
theorem u5_main_v6 (c : Dev nD) : U5 m c (Proc.devRef .tc main_v6) = dst (m ((c.tc : Thread nD τ).loc main_arg1)) := (by keep_stage : U5 m c (Proc.devRef .tc main_v6) = U4 m c (Proc.devRef .tc main_v6)).trans (u4_main_v6 m c)
theorem u3_main_v29 (c : Dev nD) : U3 m c (Proc.devRef .tc main_v29) = normOf (m ((c.tc : Thread nD τ).loc main_arg1)) := entry_main_v29 (U0 m c)
theorem u4_main_v29 (c : Dev nD) : U4 m c (Proc.devRef .tc main_v29) = normOf (m ((c.tc : Thread nD τ).loc main_arg1)) := (by keep_stage : U4 m c (Proc.devRef .tc main_v29) = U3 m c (Proc.devRef .tc main_v29)).trans (u3_main_v29 m c)
theorem u5_main_v29 (c : Dev nD) : U5 m c (Proc.devRef .tc main_v29) = normOf (m ((c.tc : Thread nD τ).loc main_arg1)) := (by keep_stage : U5 m c (Proc.devRef .tc main_v29) = U4 m c (Proc.devRef .tc main_v29)).trans (u4_main_v29 m c)
theorem u3_arg0 (c : Dev nD) : U3 m c (Proc.devRef .tc main_arg0) = (m ((c.tc : Thread nD τ).loc main_arg0)) := ((by keep_stage : U3 m c (Proc.devRef .tc main_arg0) = U2 m c (Proc.devRef .tc main_arg0)).trans ((by keep_stage : U2 m c (Proc.devRef .tc main_arg0) = U1 m c (Proc.devRef .tc main_arg0)).trans (by keep_stage : U1 m c (Proc.devRef .tc main_arg0) = U0 m c (Proc.devRef .tc main_arg0))))
theorem u3_arg2 (c : Dev nD) : U3 m c (Proc.devRef .tc main_arg2) = (m ((c.tc : Thread nD τ).loc main_arg2)) := ((by keep_stage : U3 m c (Proc.devRef .tc main_arg2) = U2 m c (Proc.devRef .tc main_arg2)).trans ((by keep_stage : U2 m c (Proc.devRef .tc main_arg2) = U1 m c (Proc.devRef .tc main_arg2)).trans (by keep_stage : U1 m c (Proc.devRef .tc main_arg2) = U0 m c (Proc.devRef .tc main_arg2))))
theorem u3_arg3 (c : Dev nD) : U3 m c (Proc.devRef .tc main_arg3) = (m ((c.tc : Thread nD τ).loc main_arg3)) := ((by keep_stage : U3 m c (Proc.devRef .tc main_arg3) = U2 m c (Proc.devRef .tc main_arg3)).trans ((by keep_stage : U2 m c (Proc.devRef .tc main_arg3) = U1 m c (Proc.devRef .tc main_arg3)).trans (by keep_stage : U1 m c (Proc.devRef .tc main_arg3) = U0 m c (Proc.devRef .tc main_arg3))))
theorem u4_arg4 (c : Dev nD) : U4 m c (Proc.devRef .tc main_arg4) = (m ((c.tc : Thread nD τ).loc main_arg4)) := ((by keep_stage : U4 m c (Proc.devRef .tc main_arg4) = U3 m c (Proc.devRef .tc main_arg4)).trans ((by keep_stage : U3 m c (Proc.devRef .tc main_arg4) = U2 m c (Proc.devRef .tc main_arg4)).trans ((by keep_stage : U2 m c (Proc.devRef .tc main_arg4) = U1 m c (Proc.devRef .tc main_arg4)).trans (by keep_stage : U1 m c (Proc.devRef .tc main_arg4) = U0 m c (Proc.devRef .tc main_arg4)))))
theorem u4_arg5 (c : Dev nD) : U4 m c (Proc.devRef .tc main_arg5) = (m ((c.tc : Thread nD τ).loc main_arg5)) := ((by keep_stage : U4 m c (Proc.devRef .tc main_arg5) = U3 m c (Proc.devRef .tc main_arg5)).trans ((by keep_stage : U3 m c (Proc.devRef .tc main_arg5) = U2 m c (Proc.devRef .tc main_arg5)).trans ((by keep_stage : U2 m c (Proc.devRef .tc main_arg5) = U1 m c (Proc.devRef .tc main_arg5)).trans (by keep_stage : U1 m c (Proc.devRef .tc main_arg5) = U0 m c (Proc.devRef .tc main_arg5)))))
theorem u5_arg6 (c : Dev nD) : U5 m c (Proc.devRef .tc main_arg6) = (m ((c.tc : Thread nD τ).loc main_arg6)) := ((by keep_stage : U5 m c (Proc.devRef .tc main_arg6) = U4 m c (Proc.devRef .tc main_arg6)).trans ((by keep_stage : U4 m c (Proc.devRef .tc main_arg6) = U3 m c (Proc.devRef .tc main_arg6)).trans ((by keep_stage : U3 m c (Proc.devRef .tc main_arg6) = U2 m c (Proc.devRef .tc main_arg6)).trans ((by keep_stage : U2 m c (Proc.devRef .tc main_arg6) = U1 m c (Proc.devRef .tc main_arg6)).trans (by keep_stage : U1 m c (Proc.devRef .tc main_arg6) = U0 m c (Proc.devRef .tc main_arg6))))))
theorem u5_arg7 (c : Dev nD) : U5 m c (Proc.devRef .tc main_arg7) = (m ((c.tc : Thread nD τ).loc main_arg7)) := ((by keep_stage : U5 m c (Proc.devRef .tc main_arg7) = U4 m c (Proc.devRef .tc main_arg7)).trans ((by keep_stage : U4 m c (Proc.devRef .tc main_arg7) = U3 m c (Proc.devRef .tc main_arg7)).trans ((by keep_stage : U3 m c (Proc.devRef .tc main_arg7) = U2 m c (Proc.devRef .tc main_arg7)).trans ((by keep_stage : U2 m c (Proc.devRef .tc main_arg7) = U1 m c (Proc.devRef .tc main_arg7)).trans (by keep_stage : U1 m c (Proc.devRef .tc main_arg7) = U0 m c (Proc.devRef .tc main_arg7))))))

/-! ## The layers -/

theorem u4_main_v47 (c : Dev nD) : U4 m c (Proc.devRef .tc main_v47) = layer1 (m ((c.tc : Thread nD τ).loc main_arg0)) (m ((c.tc : Thread nD τ).loc main_arg1)) (m ((c.tc : Thread nD τ).loc main_arg2)) (m ((c.tc : Thread nD τ).loc main_arg3)) := by
  refine (stage1_main_v47 (U3 m c)).trans ?_
  rw [u3_main_v3, u3_main_v6, u3_main_v29, u3_arg0, u3_arg2, u3_arg3]
  rfl
theorem u5_main_v65 (c : Dev nD) : U5 m c (Proc.devRef .tc main_v65)
    = layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  refine (stage2_main_v65 (U4 m c)).trans ?_
  rw [u4_main_v3, u4_main_v6, u4_main_v29, u4_main_v47, u4_arg4, u4_arg5]
  rfl
theorem u7_main_v84 (c : Dev nD) : U7 m c (Proc.devRef .tc main_v84)
    = layer3 (layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) := by
  refine (stage4_main_v84 (U6 m c)).trans ?_
  show lsm (StableHlo.after (ops3 (F := Ideal)) (U5 m c) (Proc.devRef .tc main_v83)) = _
  rw [stage3_main_v83 (U5 m c), u5_main_v3, u5_main_v6, u5_main_v29, u5_main_v65, u5_arg6, u5_arg7]
  rfl

/-! ## The arguments at the end -/

theorem u7_arg0 (c : Dev nD) : U7 m c (Proc.devRef .tc main_arg0) = (m ((c.tc : Thread nD τ).loc main_arg0)) := ((by keep_stage : U7 m c (Proc.devRef .tc main_arg0) = U6 m c (Proc.devRef .tc main_arg0)).trans ((by keep_stage : U6 m c (Proc.devRef .tc main_arg0) = U5 m c (Proc.devRef .tc main_arg0)).trans ((by keep_stage : U5 m c (Proc.devRef .tc main_arg0) = U4 m c (Proc.devRef .tc main_arg0)).trans ((by keep_stage : U4 m c (Proc.devRef .tc main_arg0) = U3 m c (Proc.devRef .tc main_arg0)).trans ((by keep_stage : U3 m c (Proc.devRef .tc main_arg0) = U2 m c (Proc.devRef .tc main_arg0)).trans ((by keep_stage : U2 m c (Proc.devRef .tc main_arg0) = U1 m c (Proc.devRef .tc main_arg0)).trans (by keep_stage : U1 m c (Proc.devRef .tc main_arg0) = U0 m c (Proc.devRef .tc main_arg0))))))))
theorem u7_arg1 (c : Dev nD) : U7 m c (Proc.devRef .tc main_arg1) = (m ((c.tc : Thread nD τ).loc main_arg1)) := ((by keep_stage : U7 m c (Proc.devRef .tc main_arg1) = U6 m c (Proc.devRef .tc main_arg1)).trans ((by keep_stage : U6 m c (Proc.devRef .tc main_arg1) = U5 m c (Proc.devRef .tc main_arg1)).trans ((by keep_stage : U5 m c (Proc.devRef .tc main_arg1) = U4 m c (Proc.devRef .tc main_arg1)).trans ((by keep_stage : U4 m c (Proc.devRef .tc main_arg1) = U3 m c (Proc.devRef .tc main_arg1)).trans ((by keep_stage : U3 m c (Proc.devRef .tc main_arg1) = U2 m c (Proc.devRef .tc main_arg1)).trans ((by keep_stage : U2 m c (Proc.devRef .tc main_arg1) = U1 m c (Proc.devRef .tc main_arg1)).trans (by keep_stage : U1 m c (Proc.devRef .tc main_arg1) = U0 m c (Proc.devRef .tc main_arg1))))))))
theorem u7_arg2 (c : Dev nD) : U7 m c (Proc.devRef .tc main_arg2) = (m ((c.tc : Thread nD τ).loc main_arg2)) := ((by keep_stage : U7 m c (Proc.devRef .tc main_arg2) = U6 m c (Proc.devRef .tc main_arg2)).trans ((by keep_stage : U6 m c (Proc.devRef .tc main_arg2) = U5 m c (Proc.devRef .tc main_arg2)).trans ((by keep_stage : U5 m c (Proc.devRef .tc main_arg2) = U4 m c (Proc.devRef .tc main_arg2)).trans ((by keep_stage : U4 m c (Proc.devRef .tc main_arg2) = U3 m c (Proc.devRef .tc main_arg2)).trans ((by keep_stage : U3 m c (Proc.devRef .tc main_arg2) = U2 m c (Proc.devRef .tc main_arg2)).trans ((by keep_stage : U2 m c (Proc.devRef .tc main_arg2) = U1 m c (Proc.devRef .tc main_arg2)).trans (by keep_stage : U1 m c (Proc.devRef .tc main_arg2) = U0 m c (Proc.devRef .tc main_arg2))))))))
theorem u7_arg3 (c : Dev nD) : U7 m c (Proc.devRef .tc main_arg3) = (m ((c.tc : Thread nD τ).loc main_arg3)) := ((by keep_stage : U7 m c (Proc.devRef .tc main_arg3) = U6 m c (Proc.devRef .tc main_arg3)).trans ((by keep_stage : U6 m c (Proc.devRef .tc main_arg3) = U5 m c (Proc.devRef .tc main_arg3)).trans ((by keep_stage : U5 m c (Proc.devRef .tc main_arg3) = U4 m c (Proc.devRef .tc main_arg3)).trans ((by keep_stage : U4 m c (Proc.devRef .tc main_arg3) = U3 m c (Proc.devRef .tc main_arg3)).trans ((by keep_stage : U3 m c (Proc.devRef .tc main_arg3) = U2 m c (Proc.devRef .tc main_arg3)).trans ((by keep_stage : U2 m c (Proc.devRef .tc main_arg3) = U1 m c (Proc.devRef .tc main_arg3)).trans (by keep_stage : U1 m c (Proc.devRef .tc main_arg3) = U0 m c (Proc.devRef .tc main_arg3))))))))
theorem u7_arg4 (c : Dev nD) : U7 m c (Proc.devRef .tc main_arg4) = (m ((c.tc : Thread nD τ).loc main_arg4)) := ((by keep_stage : U7 m c (Proc.devRef .tc main_arg4) = U6 m c (Proc.devRef .tc main_arg4)).trans ((by keep_stage : U6 m c (Proc.devRef .tc main_arg4) = U5 m c (Proc.devRef .tc main_arg4)).trans ((by keep_stage : U5 m c (Proc.devRef .tc main_arg4) = U4 m c (Proc.devRef .tc main_arg4)).trans ((by keep_stage : U4 m c (Proc.devRef .tc main_arg4) = U3 m c (Proc.devRef .tc main_arg4)).trans ((by keep_stage : U3 m c (Proc.devRef .tc main_arg4) = U2 m c (Proc.devRef .tc main_arg4)).trans ((by keep_stage : U2 m c (Proc.devRef .tc main_arg4) = U1 m c (Proc.devRef .tc main_arg4)).trans (by keep_stage : U1 m c (Proc.devRef .tc main_arg4) = U0 m c (Proc.devRef .tc main_arg4))))))))
theorem u7_arg5 (c : Dev nD) : U7 m c (Proc.devRef .tc main_arg5) = (m ((c.tc : Thread nD τ).loc main_arg5)) := ((by keep_stage : U7 m c (Proc.devRef .tc main_arg5) = U6 m c (Proc.devRef .tc main_arg5)).trans ((by keep_stage : U6 m c (Proc.devRef .tc main_arg5) = U5 m c (Proc.devRef .tc main_arg5)).trans ((by keep_stage : U5 m c (Proc.devRef .tc main_arg5) = U4 m c (Proc.devRef .tc main_arg5)).trans ((by keep_stage : U4 m c (Proc.devRef .tc main_arg5) = U3 m c (Proc.devRef .tc main_arg5)).trans ((by keep_stage : U3 m c (Proc.devRef .tc main_arg5) = U2 m c (Proc.devRef .tc main_arg5)).trans ((by keep_stage : U2 m c (Proc.devRef .tc main_arg5) = U1 m c (Proc.devRef .tc main_arg5)).trans (by keep_stage : U1 m c (Proc.devRef .tc main_arg5) = U0 m c (Proc.devRef .tc main_arg5))))))))
theorem u7_arg6 (c : Dev nD) : U7 m c (Proc.devRef .tc main_arg6) = (m ((c.tc : Thread nD τ).loc main_arg6)) := ((by keep_stage : U7 m c (Proc.devRef .tc main_arg6) = U6 m c (Proc.devRef .tc main_arg6)).trans ((by keep_stage : U6 m c (Proc.devRef .tc main_arg6) = U5 m c (Proc.devRef .tc main_arg6)).trans ((by keep_stage : U5 m c (Proc.devRef .tc main_arg6) = U4 m c (Proc.devRef .tc main_arg6)).trans ((by keep_stage : U4 m c (Proc.devRef .tc main_arg6) = U3 m c (Proc.devRef .tc main_arg6)).trans ((by keep_stage : U3 m c (Proc.devRef .tc main_arg6) = U2 m c (Proc.devRef .tc main_arg6)).trans ((by keep_stage : U2 m c (Proc.devRef .tc main_arg6) = U1 m c (Proc.devRef .tc main_arg6)).trans (by keep_stage : U1 m c (Proc.devRef .tc main_arg6) = U0 m c (Proc.devRef .tc main_arg6))))))))
theorem u7_arg7 (c : Dev nD) : U7 m c (Proc.devRef .tc main_arg7) = (m ((c.tc : Thread nD τ).loc main_arg7)) := ((by keep_stage : U7 m c (Proc.devRef .tc main_arg7) = U6 m c (Proc.devRef .tc main_arg7)).trans ((by keep_stage : U6 m c (Proc.devRef .tc main_arg7) = U5 m c (Proc.devRef .tc main_arg7)).trans ((by keep_stage : U5 m c (Proc.devRef .tc main_arg7) = U4 m c (Proc.devRef .tc main_arg7)).trans ((by keep_stage : U4 m c (Proc.devRef .tc main_arg7) = U3 m c (Proc.devRef .tc main_arg7)).trans ((by keep_stage : U3 m c (Proc.devRef .tc main_arg7) = U2 m c (Proc.devRef .tc main_arg7)).trans ((by keep_stage : U2 m c (Proc.devRef .tc main_arg7) = U1 m c (Proc.devRef .tc main_arg7)).trans (by keep_stage : U1 m c (Proc.devRef .tc main_arg7) = U0 m c (Proc.devRef .tc main_arg7))))))))

/-! ## The run -/

/-- Every weakly fair execution of the reference from the launch memory terminates without a fault; the result buffer
    ends at the layers' composed function of the arguments and each argument array ends as launched. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v84)
        = layer3 (layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v84).trans ((congrFun (after_ops (launchContents m c)) _).trans (u7_main_v84 m c)),
       (h c main_arg0).trans ((congrFun (after_ops (launchContents m c)) _).trans (u7_arg0 m c)),
       (h c main_arg1).trans ((congrFun (after_ops (launchContents m c)) _).trans (u7_arg1 m c)),
       (h c main_arg2).trans ((congrFun (after_ops (launchContents m c)) _).trans (u7_arg2 m c)),
       (h c main_arg3).trans ((congrFun (after_ops (launchContents m c)) _).trans (u7_arg3 m c)),
       (h c main_arg4).trans ((congrFun (after_ops (launchContents m c)) _).trans (u7_arg4 m c)),
       (h c main_arg5).trans ((congrFun (after_ops (launchContents m c)) _).trans (u7_arg5 m c)),
       (h c main_arg6).trans ((congrFun (after_ops (launchContents m c)) _).trans (u7_arg6 m c)),
       (h c main_arg7).trans ((congrFun (after_ops (launchContents m c)) _).trans (u7_arg7 m c))⟩)
    (run_seq scopedRefs_eq scopedSems_eq defs main (fun _ => ops) main_eq (fun _ => ops_sub) m ρ)

end Cert.ReferenceIdeal.RefSide

end
-- ==== Proof.RefBridge.lean ====
/-
  The host's spellings are the specification's functions.

  The reference spells each layer with whole-array host operations: a product of two arrays, a bias broadcast down the
  rows and added, a maximum against a broadcast zero, and for the last layer a reduction to the row maximum, a shift, an
  exponential, a reduction to the row sum, a logarithm and a second shift. Index by index these are the projection, the
  bias-and-clip and the row log-softmax of the specification.
-/
import proofs.«170503_j72395968741626_1_alg».proof.Proof.RefFuncs
import proofs.«170503_j72395968741626_1_alg».proof.Proof.Spec
import proofs.«170503_j72395968741626_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.ReferenceIdeal.RefSide

open Idealize.ShloMosaic Idealize.ShloMosaic.TcCoe Idealize.ShloMosaic.ValueIdx Idealize.SL.Sem
open Cert.ReferenceIdeal Cert.ReferenceIdeal.Gen

/-- The clip value and the maximum's start value: the float zero and minus infinity, read as extended reals. -/
abbrev zero : EReal := Ideal.ofBits .f32 0x00000000#32
abbrev ninf : EReal := Ideal.ofBits .f32 0xFF800000#32

/-- The host's product of a 50000 × 512 array by a 512 × 256 array is their projection. -/
theorem dot1_eq (X : FVec Ideal S50000x512 .f32) (W : FVec Ideal S512x256 .f32) :
    Host.dotGeneral dot_S50000x512_S512x256_S50000x256_1_0_0_1_n_n none X W
      = Spec.proj (M := 50000) (K := 512) (N := 256) X W := by
  funext i
  obtain ⟨r, c, rfl⟩ : ∃ (r : Fin 50000) (c : Fin 256), i = ix2 r c := ⟨i 0, i 1, eq_ix2 i⟩
  exact PlainDot.dotGeneral_apply (M := 50000) (K := 512) (N := 256) (φ₁ := .f32) (φ₂ := .f32)
    dot_S50000x512_S512x256_S50000x256_1_0_0_1_n_n.wf none _ X W r c

/-- The host's product of a 50000 × 256 array by a 256 × 128 array is their projection. -/
theorem dot2_eq (X : FVec Ideal S50000x256 .f32) (W : FVec Ideal S256x128 .f32) :
    Host.dotGeneral dot_S50000x256_S256x128_S50000x128_1_0_0_1_n_n none X W
      = Spec.proj (M := 50000) (K := 256) (N := 128) X W := by
  funext i
  obtain ⟨r, c, rfl⟩ : ∃ (r : Fin 50000) (c : Fin 128), i = ix2 r c := ⟨i 0, i 1, eq_ix2 i⟩
  exact PlainDot.dotGeneral_apply (M := 50000) (K := 256) (N := 128) (φ₁ := .f32) (φ₂ := .f32)
    dot_S50000x256_S256x128_S50000x128_1_0_0_1_n_n.wf none _ X W r c

/-- The host's product of a 50000 × 128 array by a 128 × 64 array is their projection. -/
theorem dot3_eq (X : FVec Ideal S50000x128 .f32) (W : FVec Ideal S128x64 .f32) :
    Host.dotGeneral dot_S50000x128_S128x64_S50000x64_1_0_0_1_n_n none X W
      = Spec.proj (M := 50000) (K := 128) (N := 64) X W := by
  funext i
  obtain ⟨r, c, rfl⟩ : ∃ (r : Fin 50000) (c : Fin 64), i = ix2 r c := ⟨i 0, i 1, eq_ix2 i⟩
  exact PlainDot.dotGeneral_apply (M := 50000) (K := 128) (N := 64) (φ₁ := .f32) (φ₂ := .f32)
    dot_S50000x128_S128x64_S50000x64_1_0_0_1_n_n.wf none _ X W r c

end Cert.ReferenceIdeal.RefSide

end
-- ==== Proof.RefBridgeClip.lean ====
/-
  The host's bias-and-clip is the specification's: the bias, broadcast down the rows and added, and the maximum against a
  broadcast zero, read at an entry.
-/
import proofs.«170503_j72395968741626_1_alg».proof.Proof.RefBridge
import proofs.«170503_j72395968741626_1_alg».proof.Proof.Spec
import proofs.«170503_j72395968741626_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.ReferenceIdeal.RefSide

open Idealize.ShloMosaic Idealize.ShloMosaic.TcCoe Idealize.ShloMosaic.ValueIdx Idealize.SL.Sem
open Cert.ReferenceIdeal Cert.ReferenceIdeal.Gen

/-- The host's bias-and-clip at width 256 is the specification's, the bias read as one row. -/
theorem clip256_eq (A : FVec Ideal S50000x256 .f32) (b : FVec Ideal S256 .f32) (h : S256.ShapeCasts S1x256) :
    clip256 A b = Spec.biasClip (M := 50000) (N := 256) zero A (shapeCast S1x256 b h) := by
  funext i
  obtain ⟨r, c, rfl⟩ : ∃ (r : Fin 50000) (c : Fin 256), i = ix2 r c := ⟨i 0, i 1, eq_ix2 i⟩
  rw [Spec.biasClip_apply, shapeCast_a_1a_apply]
  unfold clip256
  show max (A (ix2 r c) + broadcastInDim S50000x256 ![0, 1] bcast_S1x256_S50000x256_0_1 (broadcastInDim S1x256 ![1] bcast_S256_S1x256_1 b) (ix2 r c))
      (broadcastInDim S50000x256 ![] bcast_S_S50000x256 (constant (F := Ideal) S_ .f32 0x00000000#32) (ix2 r c)) = _
  rw [broadcastInDim_apply ![0, 1] bcast_S1x256_S50000x256_0_1 _ (ix2 r c) (ix2 (0 : Fin 1) c) (fun a => by
        match a with
        | ⟨0, _⟩ => rfl
        | ⟨1, _⟩ => rfl),
    broadcastInDim_apply ![1] bcast_S256_S1x256_1 b (ix2 (0 : Fin 1) c) (ix1 c) (fun a => by
        match a with
        | ⟨0, _⟩ => rfl),
    broadcastInDim_apply ![] bcast_S_S50000x256 _ (ix2 r c) ix0 (fun a => a.elim0)]
  rfl

/-- The host's bias-and-clip at width 128 is the specification's, the bias read as one row. -/
theorem clip128_eq (A : FVec Ideal S50000x128 .f32) (b : FVec Ideal S128 .f32) (h : S128.ShapeCasts S1x128) :
    clip128 A b = Spec.biasClip (M := 50000) (N := 128) zero A (shapeCast S1x128 b h) := by
  funext i
  obtain ⟨r, c, rfl⟩ : ∃ (r : Fin 50000) (c : Fin 128), i = ix2 r c := ⟨i 0, i 1, eq_ix2 i⟩
  rw [Spec.biasClip_apply, shapeCast_a_1a_apply]
  unfold clip128
  show max (A (ix2 r c) + broadcastInDim S50000x128 ![0, 1] bcast_S1x128_S50000x128_0_1 (broadcastInDim S1x128 ![1] bcast_S128_S1x128_1 b) (ix2 r c))
      (broadcastInDim S50000x128 ![] bcast_S_S50000x128 (constant (F := Ideal) S_ .f32 0x00000000#32) (ix2 r c)) = _
  rw [broadcastInDim_apply ![0, 1] bcast_S1x128_S50000x128_0_1 _ (ix2 r c) (ix2 (0 : Fin 1) c) (fun a => by
        match a with
        | ⟨0, _⟩ => rfl
        | ⟨1, _⟩ => rfl),
    broadcastInDim_apply ![1] bcast_S128_S1x128_1 b (ix2 (0 : Fin 1) c) (ix1 c) (fun a => by
        match a with
        | ⟨0, _⟩ => rfl),
    broadcastInDim_apply ![] bcast_S_S50000x128 _ (ix2 r c) ix0 (fun a => a.elim0)]
  rfl

/-- The host's bias-and-clip at width 64 is the specification's, the bias read as one row. -/
theorem clip64_eq (A : FVec Ideal S50000x64 .f32) (b : FVec Ideal S64 .f32) (h : S64.ShapeCasts S1x64) :
    clip64 A b = Spec.biasClip (M := 50000) (N := 64) zero A (shapeCast S1x64 b h) := by
  funext i
  obtain ⟨r, c, rfl⟩ : ∃ (r : Fin 50000) (c : Fin 64), i = ix2 r c := ⟨i 0, i 1, eq_ix2 i⟩
  rw [Spec.biasClip_apply, shapeCast_a_1a_apply]
  unfold clip64
  show max (A (ix2 r c) + broadcastInDim S50000x64 ![0, 1] bcast_S1x64_S50000x64_0_1 (broadcastInDim S1x64 ![1] bcast_S64_S1x64_1 b) (ix2 r c))
      (broadcastInDim S50000x64 ![] bcast_S_S50000x64 (constant (F := Ideal) S_ .f32 0x00000000#32) (ix2 r c)) = _
  rw [broadcastInDim_apply ![0, 1] bcast_S1x64_S50000x64_0_1 _ (ix2 r c) (ix2 (0 : Fin 1) c) (fun a => by
        match a with
        | ⟨0, _⟩ => rfl
        | ⟨1, _⟩ => rfl),
    broadcastInDim_apply ![1] bcast_S64_S1x64_1 b (ix2 (0 : Fin 1) c) (ix1 c) (fun a => by
        match a with
        | ⟨0, _⟩ => rfl),
    broadcastInDim_apply ![] bcast_S_S50000x64 _ (ix2 r c) ix0 (fun a => a.elim0)]
  rfl

end Cert.ReferenceIdeal.RefSide

end
-- ==== Proof.RefBridgeRed.lean ====
/-
  The host's two reductions over the columns, read at a row: the maximum from minus infinity over the 64 columns, and
  the sum from zero over the 64 columns.
-/
import proofs.«170503_j72395968741626_1_alg».proof.Proof.RefBridge
import proofs.«170503_j72395968741626_1_alg».proof.Proof.Spec
import proofs.«170503_j72395968741626_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.ReferenceIdeal.RefSide

open Idealize.ShloMosaic Idealize.ShloMosaic.TcCoe Idealize.ShloMosaic.ValueIdx Idealize.SL.Sem
open Cert.ReferenceIdeal Cert.ReferenceIdeal.Gen

/-- The shape fact of a reduction over the columns, in the form that names the inserted index. -/
theorem hred : S50000x64.Reduces [1] S50000 := by decide

/-- The index a reduction over the columns inserts at row r, column l, is (r, l). -/
theorem lift_eq (r : Fin 50000) (l : Fin 64) : hred.lift (ix1 r) l = (ix2 r l : S50000x64.Idx) :=
  funext fun a => Fin.ext (by
    match a with
    | ⟨0, _⟩ => rfl
    | ⟨1, _⟩ => rfl)

/-- The host's maximum over the columns, from minus infinity, at row r. -/
theorem hmax (H : FVec Ideal S50000x64 .f32) (r : Fin 50000) :
    Host.reduce FloatOps.maximumf H (constant (F := Ideal) S_ .f32 0xFF800000#32) reducesTo_S50000x64_S50000_d1 h_S_ (ix1 r)
      = (Finset.univ : Finset (Fin 64)).fold max ninf (fun l => H (ix2 r l)) := by
  refine (Host.reduce_eq_fold_single FloatOps.maximumf H _ reducesTo_S50000x64_S50000_d1 hred h_S_ (ix1 r)).trans ?_
  have hf : (fun l : Fin 64 => H (hred.lift (ix1 r) l)) = fun l : Fin 64 => H (ix2 r l) :=
    funext fun l => congrArg H (lift_eq r l)
  exact congrArg (fun f : Fin 64 → EReal => (Finset.univ : Finset (Fin 64)).fold max ninf f) hf

/-- The host's sum over the columns, from zero, at row r. -/
theorem hsum (E : FVec Ideal S50000x64 .f32) (r : Fin 50000) :
    Host.reduceAdd E (constant (F := Ideal) S_ .f32 0x00000000#32) reducesTo_S50000x64_S50000_d1 h_S_ (ix1 r) = ∑ l : Fin 64, E (ix2 r l) := by
  unfold Host.reduceAdd
  rw [Ideal.hostReduceAdd_def]
  refine (Ideal.hostReduceAdd_single reducesTo_S50000x64_S50000_d1 hred E _ (ix1 r)).trans ?_
  have hz : (constant (F := Ideal) S_ .f32 0x00000000#32 (Shape.Idx.first h_S_) : EReal) = 0 := Ideal.ofBits_zero_f32
  rw [hz, zero_add]
  exact Finset.sum_congr rfl fun l _ => congrArg E (lift_eq r l)

end Cert.ReferenceIdeal.RefSide

end
-- ==== Proof.RefBridgeLsm.lean ====
/-
  The host's row log-softmax is the specification's.

  The host spells it as: reduce each row to its maximum (from minus infinity, then once more against minus infinity),
  place that beside the row and subtract, exponentiate, reduce each row to its sum, place the sum's logarithm beside the
  row and subtract again. Everything but the two reductions is a broadcast or a pointwise operation, read at an entry
  with the reductions left as arbitrary functions; the reductions themselves are the row's maximum and the row's sum.
-/
import proofs.«170503_j72395968741626_1_alg».proof.Proof.RefBridgeRed
import proofs.«170503_j72395968741626_1_alg».proof.Proof.Spec
import proofs.«170503_j72395968741626_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.ReferenceIdeal.RefSide

open Idealize.ShloMosaic Idealize.ShloMosaic.TcCoe Idealize.ShloMosaic.ValueIdx Idealize.SL.Sem
open Cert.ReferenceIdeal Cert.ReferenceIdeal.Gen

/-- A per-row vector placed beside every entry of its row by the host's two broadcasts, read at (r, c). -/
theorem beside_apply (u : FVec Ideal S50000 .f32) (r : Fin 50000) (c : Fin 64) :
    broadcastInDim S50000x64 ![0, 1] bcast_S50000x1_S50000x64_0_1 (broadcastInDim S50000x1 ![0] bcast_S50000_S50000x1_0 u) (ix2 r c) = u (ix1 r) := by
  rw [broadcastInDim_apply ![0, 1] bcast_S50000x1_S50000x64_0_1 _ (ix2 r c) (ix2 r (0 : Fin 1)) (fun a => by
        match a with
        | ⟨0, _⟩ => rfl
        | ⟨1, _⟩ => rfl),
    broadcastInDim_apply ![0] bcast_S50000_S50000x1_0 u (ix2 r (0 : Fin 1)) (ix1 r) (fun a => by
        match a with
        | ⟨0, _⟩ => rfl)]

/-! ## The spelling with the reductions as arbitrary functions -/

section Opaque
variable (gmax gsum : FVec Ideal S50000x64 .f32 → FVec Ideal S50000 .f32)

/-- Each row less the larger of minus infinity and `gmax` of the array at that row. -/
def shiftedG (H : FVec Ideal S50000x64 .f32) : FVec Ideal S50000x64 .f32 :=
  subf H (broadcastInDim S50000x64 ![0, 1] bcast_S50000x1_S50000x64_0_1 (broadcastInDim S50000x1 ![0] bcast_S50000_S50000x1_0
    (maximumf (broadcastInDim S50000 ![] bcast_S_S50000 (constant (F := Ideal) S_ .f32 0xFF800000#32)) (gmax H))))

/-- The shifted rows less the logarithm of `gsum` of their exponentials. -/
def lsmG (H : FVec Ideal S50000x64 .f32) : FVec Ideal S50000x64 .f32 :=
  subf (shiftedG gmax H) (broadcastInDim S50000x64 ![0, 1] bcast_S50000x1_S50000x64_0_1
    (Host.log (broadcastInDim S50000x1 ![0] bcast_S50000_S50000x1_0 (gsum (Host.exp (shiftedG gmax H))))))

theorem shiftedG_apply (H : FVec Ideal S50000x64 .f32) (r : Fin 50000) (l : Fin 64) :
    shiftedG gmax H (ix2 r l) = H (ix2 r l) - max ninf (gmax H (ix1 r)) := by
  unfold shiftedG
  show H (ix2 r l) - broadcastInDim S50000x64 ![0, 1] bcast_S50000x1_S50000x64_0_1 (broadcastInDim S50000x1 ![0] bcast_S50000_S50000x1_0
    (maximumf (broadcastInDim S50000 ![] bcast_S_S50000 (constant (F := Ideal) S_ .f32 0xFF800000#32)) (gmax H))) (ix2 r l) = _
  rw [beside_apply]
  show H (ix2 r l) - max (broadcastInDim S50000 ![] bcast_S_S50000 (constant (F := Ideal) S_ .f32 0xFF800000#32) (ix1 r)) (gmax H (ix1 r)) = _
  rw [broadcastInDim_apply ![] bcast_S_S50000 _ (ix1 r) ix0 (fun a => a.elim0)]
  rfl

theorem lsmG_apply (H : FVec Ideal S50000x64 .f32) (r : Fin 50000) (c : Fin 64) :
    lsmG gmax gsum H (ix2 r c) = shiftedG gmax H (ix2 r c) - Ideal.log (gsum (Host.exp (shiftedG gmax H)) (ix1 r)) := by
  unfold lsmG
  show shiftedG gmax H (ix2 r c) - broadcastInDim S50000x64 ![0, 1] bcast_S50000x1_S50000x64_0_1
      (Host.log (broadcastInDim S50000x1 ![0] bcast_S50000_S50000x1_0 (gsum (Host.exp (shiftedG gmax H))))) (ix2 r c) = _
  rw [broadcastInDim_apply ![0, 1] bcast_S50000x1_S50000x64_0_1 _ (ix2 r c) (ix2 r (0 : Fin 1)) (fun a => by
        match a with
        | ⟨0, _⟩ => rfl
        | ⟨1, _⟩ => rfl)]
  show shiftedG gmax H (ix2 r c) - Ideal.log (broadcastInDim S50000x1 ![0] bcast_S50000_S50000x1_0 (gsum (Host.exp (shiftedG gmax H))) (ix2 r (0 : Fin 1))) = _
  rw [broadcastInDim_apply ![0] bcast_S50000_S50000x1_0 _ (ix2 r (0 : Fin 1)) (ix1 r) (fun a => by
        match a with
        | ⟨0, _⟩ => rfl)]

end Opaque

/-! ## The host's two reductions -/

/-- The host's reduction of each row to its maximum, from minus infinity. -/
def gmaxR (X : FVec Ideal S50000x64 .f32) : FVec Ideal S50000 .f32 :=
  Host.reduce FloatOps.maximumf X (constant (F := Ideal) S_ .f32 0xFF800000#32) reducesTo_S50000x64_S50000_d1 h_S_

/-- The host's reduction of each row to its sum, from zero. -/
def gsumR (X : FVec Ideal S50000x64 .f32) : FVec Ideal S50000 .f32 :=
  Host.reduceAdd X (constant (F := Ideal) S_ .f32 0x00000000#32) reducesTo_S50000x64_S50000_d1 h_S_

theorem gmaxR_apply (H : FVec Ideal S50000x64 .f32) (r : Fin 50000) :
    gmaxR H (ix1 r) = (Finset.univ : Finset (Fin 64)).fold max ninf (fun l => H (ix2 r l)) := hmax H r
theorem gsumR_apply (E : FVec Ideal S50000x64 .f32) (r : Fin 50000) : gsumR E (ix1 r) = ∑ l : Fin 64, E (ix2 r l) := hsum E r

/-- The host's row log-softmax is the spelling above at the host's two reductions. -/
theorem lsm_eq_G (H : FVec Ideal S50000x64 .f32) : lsm H = lsmG gmaxR gsumR H := rfl

/-- THE HOST'S ROW LOG-SOFTMAX is the specification's. -/
theorem lsm_eq (H : FVec Ideal S50000x64 .f32) : lsm H = Spec.logSoftmax (M := 50000) (N := 64) ninf H := by
  rw [lsm_eq_G]
  funext i
  obtain ⟨r, c, rfl⟩ : ∃ (r : Fin 50000) (c : Fin 64), i = ix2 r c := ⟨i 0, i 1, eq_ix2 i⟩
  rw [Spec.logSoftmax_apply, lsmG_apply, shiftedG_apply, gsumR_apply, gmaxR_apply]
  refine congrArg (fun s => (H (ix2 r c) - Spec.rowMax (M := 50000) (N := 64) ninf H r) - Ideal.log s) ?_
  refine Finset.sum_congr rfl fun l _ => ?_
  show Ideal.exp (shiftedG gmaxR H (ix2 r l)) = _
  rw [shiftedG_apply, gmaxR_apply]
  rfl

end Cert.ReferenceIdeal.RefSide

end
-- ==== Proof.Bridge.lean ====
/-
  The two programs compute one function.

  Both programs gather and sum along the same edges with the same normalisation: those host computations are the
  same operations on both sides and are compared as wholes, never opened. What differs is how each layer's dense
  part is spelt: the kernel program computes the projection, the bias-and-clip and the row log-softmax tile by tile in
  a narrower float format, the reference with whole-array host operations. On the extended reals a change of format
  is the identity, the tiles assemble to the whole-array functions, and the host's spellings are those same functions;
  so layer by layer the two results are equal.
-/
import proofs.«170503_j72395968741626_1_alg».proof.Proof.KValue
import proofs.«170503_j72395968741626_1_alg».proof.Proof.RefValue
import proofs.«170503_j72395968741626_1_alg».proof.Proof.RefBridge
import proofs.«170503_j72395968741626_1_alg».proof.Proof.RefBridgeClip
import proofs.«170503_j72395968741626_1_alg».proof.Proof.RefBridgeLsm

set_option maxRecDepth 65536

noncomputable section

namespace Cert.Bridge

open Idealize.ShloMosaic Idealize.ShloMosaic.TcCoe Idealize.SL.Sem

/-! ## The host computations are the same operations on both sides -/

theorem src_eq (e : IVec Cert.ReferenceIdeal.S2x800000 32) : Cert.KernelIdeal.HostSide.src e = Cert.ReferenceIdeal.RefSide.src e := rfl
theorem dst_eq (e : IVec Cert.ReferenceIdeal.S2x800000 32) : Cert.KernelIdeal.HostSide.dst e = Cert.ReferenceIdeal.RefSide.dst e := rfl
theorem wrap_eq (v : IVec Cert.ReferenceIdeal.S850000 32) : Cert.KernelIdeal.HostSide.wrap v = Cert.ReferenceIdeal.RefSide.wrap v := rfl
theorem deg_eq (d : IVec Cert.ReferenceIdeal.S850000 32) : Cert.KernelIdeal.HostSide.deg d = Cert.ReferenceIdeal.RefSide.deg d := rfl
theorem dis_eq (d : IVec Cert.ReferenceIdeal.S850000 32) : Cert.KernelIdeal.HostSide.dis d = Cert.ReferenceIdeal.RefSide.dis d := by
  unfold Cert.KernelIdeal.HostSide.dis Cert.ReferenceIdeal.RefSide.dis; rw [deg_eq]
theorem norm_eq (s d : IVec Cert.ReferenceIdeal.S850000 32) (x : FVec Ideal Cert.ReferenceIdeal.S50000 .f32) : Cert.KernelIdeal.HostSide.norm s d x = Cert.ReferenceIdeal.RefSide.norm s d x := by
  unfold Cert.KernelIdeal.HostSide.norm Cert.ReferenceIdeal.RefSide.norm; rw [wrap_eq, wrap_eq]; rfl
theorem normOf_eq (e : IVec Cert.ReferenceIdeal.S2x800000 32) : Cert.KernelIdeal.KValue.normOf e = Cert.ReferenceIdeal.RefSide.normOf e := by
  unfold Cert.KernelIdeal.KValue.normOf Cert.ReferenceIdeal.RefSide.normOf; rw [src_eq, dst_eq, dis_eq, norm_eq]

/-- One aggregation: the kernel program gathers rows in the narrower format and widens them, the identity here. -/
theorem agg256_eq (s d : IVec Cert.ReferenceIdeal.S850000 32) (n : FVec Ideal Cert.ReferenceIdeal.S850000 .f32) (H : FVec Ideal Cert.ReferenceIdeal.S50000x256 .f32) :
    Cert.KernelIdeal.HostSide.agg256 s d n H = Cert.ReferenceIdeal.RefSide.agg256 s d n H := by
  unfold Cert.KernelIdeal.HostSide.agg256 Cert.ReferenceIdeal.RefSide.agg256; rw [wrap_eq]; rfl
theorem agg128_eq (s d : IVec Cert.ReferenceIdeal.S850000 32) (n : FVec Ideal Cert.ReferenceIdeal.S850000 .f32) (H : FVec Ideal Cert.ReferenceIdeal.S50000x128 .f32) :
    Cert.KernelIdeal.HostSide.agg128 s d n H = Cert.ReferenceIdeal.RefSide.agg128 s d n H := by
  unfold Cert.KernelIdeal.HostSide.agg128 Cert.ReferenceIdeal.RefSide.agg128; rw [wrap_eq]; rfl
theorem agg64_eq (s d : IVec Cert.ReferenceIdeal.S850000 32) (n : FVec Ideal Cert.ReferenceIdeal.S850000 .f32) (H : FVec Ideal Cert.ReferenceIdeal.S50000x64 .f32) :
    Cert.KernelIdeal.HostSide.agg64 s d n H = Cert.ReferenceIdeal.RefSide.agg64 s d n H := by
  unfold Cert.KernelIdeal.HostSide.agg64 Cert.ReferenceIdeal.RefSide.agg64; rw [wrap_eq]; rfl

/-! ## The layers -/

theorem layer1_eq (X : FVec Ideal Cert.ReferenceIdeal.S50000x512 .f32) (e : IVec Cert.ReferenceIdeal.S2x800000 32) (W1 : FVec Ideal Cert.ReferenceIdeal.S512x256 .f32)
    (b1 : FVec Ideal Cert.ReferenceIdeal.S256 .f32) : Cert.KernelIdeal.KValue.layer1 X e W1 b1 = Cert.ReferenceIdeal.RefSide.layer1 X e W1 b1 := by
  unfold Cert.KernelIdeal.KValue.layer1 Cert.ReferenceIdeal.RefSide.layer1
  rw [Cert.ReferenceIdeal.RefSide.clip256_eq _ _ Cert.KernelIdeal.Gen.shapeCasts_S256_S1x256, Cert.ReferenceIdeal.RefSide.dot1_eq, src_eq, dst_eq, normOf_eq]
  exact congrArg (fun A => Spec.biasClip (M := 50000) (N := 256) Cert.ReferenceIdeal.RefSide.zero A _) (agg256_eq _ _ _ _)

theorem layer2_eq (H1 : FVec Ideal Cert.ReferenceIdeal.S50000x256 .f32) (e : IVec Cert.ReferenceIdeal.S2x800000 32) (W2 : FVec Ideal Cert.ReferenceIdeal.S256x128 .f32)
    (b2 : FVec Ideal Cert.ReferenceIdeal.S128 .f32) : Cert.KernelIdeal.KValue.layer2 H1 e W2 b2 = Cert.ReferenceIdeal.RefSide.layer2 H1 e W2 b2 := by
  unfold Cert.KernelIdeal.KValue.layer2 Cert.ReferenceIdeal.RefSide.layer2
  rw [Cert.ReferenceIdeal.RefSide.clip128_eq _ _ Cert.KernelIdeal.Gen.shapeCasts_S128_S1x128, Cert.ReferenceIdeal.RefSide.dot2_eq, src_eq, dst_eq, normOf_eq]
  exact congrArg (fun A => Spec.biasClip (M := 50000) (N := 128) Cert.ReferenceIdeal.RefSide.zero A _) (agg128_eq _ _ _ _)

theorem layer3_eq (H2 : FVec Ideal Cert.ReferenceIdeal.S50000x128 .f32) (e : IVec Cert.ReferenceIdeal.S2x800000 32) (W3 : FVec Ideal Cert.ReferenceIdeal.S128x64 .f32)
    (b3 : FVec Ideal Cert.ReferenceIdeal.S64 .f32) : Cert.KernelIdeal.KValue.layer3 H2 e W3 b3 = Cert.ReferenceIdeal.RefSide.layer3 H2 e W3 b3 := by
  unfold Cert.KernelIdeal.KValue.layer3 Cert.ReferenceIdeal.RefSide.layer3
  rw [Cert.ReferenceIdeal.RefSide.lsm_eq, Cert.ReferenceIdeal.RefSide.clip64_eq _ _ Cert.KernelIdeal.Gen.shapeCasts_S64_S1x64, Cert.ReferenceIdeal.RefSide.dot3_eq, src_eq, dst_eq, normOf_eq]
  exact congrArg (fun A => Spec.logSoftmax (M := 50000) (N := 64) Cert.ReferenceIdeal.RefSide.ninf (Spec.biasClip (M := 50000) (N := 64) Cert.ReferenceIdeal.RefSide.zero A _)) (agg64_eq _ _ _ _)

/-- THE TWO RESULTS, as functions of the eight arguments, are one function. -/
theorem result_eq (X : FVec Ideal Cert.ReferenceIdeal.S50000x512 .f32) (e : IVec Cert.ReferenceIdeal.S2x800000 32) (W1 : FVec Ideal Cert.ReferenceIdeal.S512x256 .f32)
    (b1 : FVec Ideal Cert.ReferenceIdeal.S256 .f32) (W2 : FVec Ideal Cert.ReferenceIdeal.S256x128 .f32) (b2 : FVec Ideal Cert.ReferenceIdeal.S128 .f32)
    (W3 : FVec Ideal Cert.ReferenceIdeal.S128x64 .f32) (b3 : FVec Ideal Cert.ReferenceIdeal.S64 .f32) :
    Cert.KernelIdeal.KValue.layer3 (Cert.KernelIdeal.KValue.layer2 (Cert.KernelIdeal.KValue.layer1 X e W1 b1) e W2 b2) e W3 b3
      = Cert.ReferenceIdeal.RefSide.layer3 (Cert.ReferenceIdeal.RefSide.layer2 (Cert.ReferenceIdeal.RefSide.layer1 X e W1 b1) e W2 b2) e W3 b3 := by
  rw [layer3_eq, layer2_eq, layer1_eq]

end Cert.Bridge

end
-- ==== Proof.lean ====
/-
  The certificate: a three-layer graph-convolution encoder computed with six tiled kernels and host gathers and sums
  between them, against the same encoder written with whole-array operations.

  THE FRAMES. Both printed forms of the kernel program run — every weakly fair execution terminates, nothing faults,
  the argument arrays end as launched — by the frame of their six pipelined regions among the host stretches. The
  reference is a straight line of host operations; its run is read off the fold of its operations' results.

  THE IDEALIZATION rewrote no operation, so there is nothing to preserve.

  THE VALUE. On the extended reals a change of float format is the identity. Each region's 25 row blocks tile its
  50000-row output, and inside a block the body computes, entry by entry, what the whole-array function computes at
  that entry: a row of the features against a column of the weights (the same sum, block or whole); the aggregated
  entry plus the bias of its column, clipped at zero; and for the last region the row's log-softmax, every ingredient
  of which — the clipped row, its maximum, the sum of its shifted exponentials — is a quantity of that row alone. So
  each region leaves the projection, the bias-and-clip, or the row log-softmax of the arrays it found. Between the
  regions both programs gather each edge's source row, scale it by the edge's normalisation and sum it into the
  destination row with the same host operations on the same index vectors; those are compared as wholes. The
  reference's whole-array product, broadcast-add-maximum and reduce-shift-exponential-reduce-logarithm-shift are,
  index by index, the same three functions. Hence the two results are one function of the eight arguments, and from
  memories that agree on the arguments the two runs end with equal results.
-/
import proofs.«170503_j72395968741626_1_alg».proof.Defs
import proofs.«170503_j72395968741626_1_alg».proof.Proof.Gen.Kernel
import proofs.«170503_j72395968741626_1_alg».proof.Proof.Gen.Kernel.Frame
import proofs.«170503_j72395968741626_1_alg».proof.Proof.Gen.KernelIdeal
import proofs.«170503_j72395968741626_1_alg».proof.Proof.Gen.KernelIdeal.Frame
import proofs.«170503_j72395968741626_1_alg».proof.Proof.Gen.ReferenceIdeal
import proofs.«170503_j72395968741626_1_alg».proof.Proof.Gen.Pre_finite_inputs
import proofs.«170503_j72395968741626_1_alg».proof.Proof.KRun
import proofs.«170503_j72395968741626_1_alg».proof.Proof.KValue
import proofs.«170503_j72395968741626_1_alg».proof.Proof.RefValue
import proofs.«170503_j72395968741626_1_alg».proof.Proof.Bridge
import Idealize.ShloMosaic.Adequacy
import Idealize.ShloMosaic.Init

set_option maxRecDepth 65536

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefSide.run m ρ)

/-- From memories agreeing on the arguments both programs run and end with equal results: the kernel program's result
    buffer ends at its three layers' composed function of the arguments, the reference's at its own, and the two
    functions are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.layer3 (Cert.KernelIdeal.KValue.layer2 (Cert.KernelIdeal.KValue.layer1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.w14_v84 m ρ c), (h c).2⟩)
      (Cert.KernelIdeal.KValue.run_result m ρ)
  · refine (θ_run Cert.ReferenceIdeal.defs _ _).mono (fun r h c => ⟨(h c).1.trans ?_, (h c).2⟩)
      (Cert.ReferenceIdeal.RefSide.run m' ρ')
    obtain ⟨a0, a1, a2, a3, a4, a5, a6, a7⟩ := hagree c
    rw [a0, a1, a2, a3, a4, a5, a6, a7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
